-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel

variable [Facts]

def fn {F : FTy → Type} [FloatOps F] (main_arg0 : FVec F S4x4096x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  main_v3
-- ==== Kernel.lean ====
abbrev S4x4096x1024 : Shape := ⟨3, ![4, 4096, 1024]⟩
abbrev S1x1024x1024 : Shape := ⟨3, ![1, 1024, 1024]⟩
abbrev S1x512x1024 : Shape := ⟨3, ![1, 512, 1024]⟩
abbrev S1024x1 : Shape := ⟨2, ![1024, 1]⟩
abbrev S1024x1024 : Shape := ⟨2, ![1024, 1024]⟩
abbrev S512x1024 : Shape := ⟨2, ![512, 1024]⟩
abbrev S1024x512 : Shape := ⟨2, ![1024, 512]⟩
abbrev S1024 : Shape := ⟨1, ![1024]⟩

abbrev nBuf : Space → Nat
  | .hbm => 3
  | .vmem => 9
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .bf16⟩
  | .hbm, ⟨2, _⟩ => ⟨S4x4096x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1, .f32⟩
  | .local _ .vmem, ⟨7, _⟩ => ⟨S1024x1, .f32⟩
  | .local _ .vmem, ⟨8, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v38 : BitVec 1 := Scalar.cmpi .eq arg2 c7_i32
  let v39 : BitVec 32 := Scalar.extui v38
  let c0_i32_21 : BitVec 32 := 0#32
  let v40 : BitVec 1 := Scalar.cmpi .ne v39 c0_i32_21
  v40

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  transposes_S512x1024_p1_0_S1024x512 : S512x1024.Transposes [1, 0] S1024x512
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  shapeCasts_S1024x1024_S1x1024x1024 : S1024x1024.ShapeCasts S1x1024x1024
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x4096x1024.size a
  hwx0_0 : ∀ i : grid0.Coords, EltTy.bits .bf16 = 32 ∨ (Rect.block (s := S4x4096x1024) S1x1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S4x4096x1024.size a
  hwx0_1 : ∀ i : grid0.Coords, EltTy.bits .bf16 = 32 ∨ (Rect.block (s := S4x4096x1024) S1x512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S4x4096x1024.size a
  hwx0_2 : ∀ i : grid0.Coords, EltTy.bits .f32 = 32 ∨ (Rect.block (s := S4x4096x1024) S1x1024x1024.size (cc0_transform_2 i) (hinb0_2 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 17
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x4096, .f32⟩
  | .hbm, ⟨2, _⟩ => ⟨S_, .f32⟩
  | .hbm, ⟨3, _⟩ => ⟨S4x4096, .f32⟩
  | .hbm, ⟨4, _⟩ => ⟨S_, .f32⟩
  | .hbm, ⟨5, _⟩ => ⟨S4x4096, .f32⟩
  | .hbm, ⟨6, _⟩ => ⟨S4x4096, .f32⟩
  | .hbm, ⟨7, _⟩ => ⟨S4x4096x1, .f32⟩
  | .hbm, ⟨8, _⟩ => ⟨S4x4096x4096, .f32⟩
  | .hbm, ⟨9, _⟩ => ⟨S4x4096x4096, .f32⟩
  | .hbm, ⟨10, _⟩ => ⟨S4x4096x4096, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S4x4096x4096, .f32⟩
  | .hbm, ⟨15, _⟩ => ⟨S4x4096x4096, .f32⟩
  | .hbm, ⟨16, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]

class Facts₀ : Prop where
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S4x4096x1024_S4x4096x4096_2_2_1_1_0_0_wf : DotDims.WF S4x4096x1024 S4x4096x1024 S4x4096x4096 [2] [2] [1] [1] [0] [0]
  dot_S4x4096x4096_S4x4096x1024_S4x4096x1024_2_1_1_2_0_0_wf : DotDims.WF S4x4096x4096 S4x4096x1024 S4x4096x1024 [2] [1] [1] [2] [0] [0]

variable [Facts₀]

def dot_S4x4096x1024_S4x4096x1024_S4x4096x4096_2_2_1_1_0_0 : DotDims S4x4096x1024 S4x4096x1024 S4x4096x4096 where
  lhsContracting := [2]
  rhsContracting := [2]
  lhsNonContracting := [1]
  rhsNonContracting := [1]
  lhsBatch := [0]
  rhsBatch := [0]
  wf := dot_S4x4096x1024_S4x4096x1024_S4x4096x4096_2_2_1_1_0_0_wf
def dot_S4x4096x4096_S4x4096x1024_S4x4096x1024_2_1_1_2_0_0 : DotDims S4x4096x4096 S4x4096x1024 S4x4096x1024 where
  lhsContracting := [2]
  rhsContracting := [1]
  lhsNonContracting := [1]
  rhsNonContracting := [2]
  lhsBatch := [0]
  rhsBatch := [0]
  wf := dot_S4x4096x4096_S4x4096x1024_S4x4096x1024_2_1_1_2_0_0_wf

class Facts : Prop extends Facts₀ where

variable [Facts]
-- ==== Proof.KBase.lean ====
/-
  What the body runs of the attention kernel share.  The array the region finds is the argument converted once
  by the host; the two input windows read it at the block (b, qi, 0) of 1024 query rows and at the block
  (b, ki, 0) of 512 key rows, the output window writes the block (b, qi, 0).  The grid's 128 points are
  t = 32·b + 8·qi + ki: the running maximum, denominator and numerator kept in scratch are reset where
  ki = 0 (t ≡ 0 mod 8) and the output block is stored where ki = 7 (t ≡ 7 mod 8).
-/
import proofs.«103166_j2052994367763_2_alg».proof.Proof.Gen.Kernel.Launch
import proofs.«103166_j2052994367763_2_alg».proof.Proof.Gen.Kernel.Skeleton
import proofs.«103166_j2052994367763_2_alg».proof.Proof.Gen.Kernel.Points
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host's conversion, then the region -/

/-- The buffers as the region finds them: after the host's one conversion of the argument. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the conversion followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The conversion writes its own result only: the region finds the argument as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query window's staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The key window's staging buffer holds its block at every point. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, decided over the grid -/

/-- The reset's condition: the key-block coordinate is 0. -/
abbrev cond1 (i : grid0.Coords) : Prop := (Scalar.cmpi .ne (Scalar.extui (Scalar.cmpi .eq (BitVec.ofNat 32 (i 2).val) 0#32)) 0#32) = 1#1
theorem hcond1 : ∀ t : Fin cfg0.N, cond1 (grid0.coords t) ↔ t.val % 8 = 0 :=
  (by decide +kernel : ∀ t : Fin grid0.N, cond1 (grid0.coords t) ↔ t.val % 8 = 0)

/-- The output store's condition: the key-block coordinate is 7. -/
abbrev cond2 (i : grid0.Coords) : Prop := k0_cond2 i = 1#1
theorem hcond2 : ∀ t : Fin cfg0.N, cond2 (grid0.coords t) ↔ t.val % 8 = 7 :=
  (by decide +kernel : ∀ t : Fin grid0.N, cond2 (grid0.coords t) ↔ t.val % 8 = 7)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
/-- Where the output is not stored the window is idle and is not written back. -/
theorem idleAt2 : ∀ t : Fin cfg0.N, ¬cond2 (grid0.coords t) → cfg0.idle 2 (grid0.coords t) = true := by decide +kernel
theorem noFlush2 : ∀ t : Fin cfg0.N, ¬cond2 (grid0.coords t) → (cfg0.win 2).flush t = false := by decide +kernel
theorem liveAt2 : ∀ t : Fin cfg0.N, cond2 (grid0.coords t) → cfg0.idle 2 (grid0.coords t) = false := by decide +kernel

/-! ## The staging and scratch memrefs -/

abbrev ms0 (t : Fin cfg0.N) : Memref sig .tc .vmem S1x1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x1024 .f32 := win0_2.stage (cfg0.slots t 2)
abbrev hs2 (t : Fin cfg0.N) : (ms2 t).IsWhole := hstage0_2 ((cfg0.slots t 2).cast nbuf0_2)
/-- The running maximum, the running denominator, the running numerator. -/
abbrev scM : Memref sig .tc .vmem S1024x1 .f32 := Memref.whole cc0_scratch0
abbrev scL : Memref sig .tc .vmem S1024x1 .f32 := Memref.whole cc0_scratch1
abbrev scA : Memref sig .tc .vmem S1024x1024 .f32 := Memref.whole cc0_scratch2

/-- The scoped buffers the pipeline does not stage are the three scratch buffers, each owned at some contents. -/
theorem scopedRest_eq (c : Dev nD) :
    (Pipeline.scopedRest (Ix := Unit) (Name := ℕ) (U := UR sig nD τ) (Lvl := ℕ) (Val := Elt F) spec0 c : sProp 𝕄)
      = iprop((∃ d, owns (c : Thread nD τ) scM fullShare d) ∗ (∃ d, owns (c : Thread nD τ) scL fullShare d) ∗ (∃ d, owns (c : Thread nD τ) scA fullShare d)) := by
  rw [scopedRest0_eq]; simp only [scM, scL, scA, owns_whole]; try rfl

end Cert.Kernel.Hand

end
-- ==== Proof.KRuns.lean ====
import proofs.«103166_j2052994367763_2_alg».proof.Proof.KBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with ki = 0: whatever the scratch buffers hold, the body resets them (maximum -∞, denominator
    and numerator 0), then folds this block in and stores each whole; the output buffer is untouched. -/
noncomputable def runA (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc1 : cond1 i) (hc2 : ¬cond2 i)
    (x0 : Vec F S1x1024x1024 .bf16) (x1 : Vec F S1x512x1024 .bf16) :
    Σ' (LM : List (View.Piece (Elt F) S1024x1 .f32)) (LL : List (View.Piece (Elt F) S1024x1 .f32)), { LA : List (View.Piece (Elt F) S1024x1024 .f32) //
      ∀ (xi2 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare xi2
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare xi2
                ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LL) ∗ (∃ f, arg8.view.loc (c : Thread nD τ) ↦[arg8.view.set]{fullShare} arg8.view.writes (Elt F) f LA)) -∗ K ⟨⟩))
          ⊢ wp frame (wpE (defs₀ (F := F)) Variants.none c none) E (cc0__attn_kernel i arg3 harg3 arg4 harg4 arg5 harg5 arg6 harg6 arg7 harg7 arg8 harg8) K } := by
  refine ⟨?_, ?_, ?_, fun xi2 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%dM, %fM, -, HM⟩, ⟨%dL, %fL, -, HL⟩, ⟨%dA, %fA, -, HA⟩, Hk⟩
    obtain rfl := harg3.eq_unread hf0; obtain rfl := harg4.eq_unread hf1; obtain rfl := harg5.eq_unread hf2
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HM]; · iexists _; iexact HM
    isplitl [HL]; · iexists _; iexact HL
    iexists _; iexact HA

set_option maxHeartbeats 1000000 in
/-- The body at a point with 0 < ki < 7: the scratch buffers hold the running maximum, denominator and numerator of
    the blocks before; the body rescales them by this block and stores each whole; the output buffer is untouched.
    The pieces each scratch ends with are found by the run. -/
noncomputable def runB (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc1 : ¬cond1 i) (hc2 : ¬cond2 i)
    (x0 : Vec F S1x1024x1024 .bf16) (x1 : Vec F S1x512x1024 .bf16) (xM : Vec F S1024x1 .f32) (xL : Vec F S1024x1 .f32) (xA : Vec F S1024x1024 .f32) :
    Σ' (LM : List (View.Piece (Elt F) S1024x1 .f32)) (LL : List (View.Piece (Elt F) S1024x1 .f32)), { LA : List (View.Piece (Elt F) S1024x1024 .f32) //
      ∀ (xi2 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare xi2
            ∗ owns (c : Thread nD τ) arg6 fullShare xM ∗ owns (c : Thread nD τ) arg7 fullShare xL ∗ owns (c : Thread nD τ) arg8 fullShare xA
            ∗ (iprop(owns (c : Thread nD τ) arg3 fullShare x0 ∗ owns (c : Thread nD τ) arg4 fullShare x1 ∗ owns (c : Thread nD τ) arg5 fullShare xi2
                ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LL) ∗ (∃ f, arg8.view.loc (c : Thread nD τ) ↦[arg8.view.set]{fullShare} arg8.view.writes (Elt F) f LA)) -∗ K ⟨⟩))
          ⊢ wp frame (wpE (defs₀ (F := F)) Variants.none c none) E (cc0__attn_kernel i arg3 harg3 arg4 harg4 arg5 harg5 arg6 harg6 arg7 harg7 arg8 harg8) K } := by
  refine ⟨?_, ?_, ?_, fun xi2 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%fM, %hfM, HM⟩, ⟨%fL, %hfL, HL⟩, ⟨%fA, %hfA, HA⟩, Hk⟩
    obtain rfl := harg3.eq_unread hf0; obtain rfl := harg4.eq_unread hf1; obtain rfl := harg5.eq_unread hf2
    obtain rfl := harg6.eq_unread hfM; obtain rfl := harg7.eq_unread hfL; obtain rfl := harg8.eq_unread hfA
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HM]; · iexists _; iexact HM
    isplitl [HL]; · iexists _; iexact HL
    iexists _; iexact HA

set_option maxHeartbeats 1000000 in
/-- The body at a point with ki = 7: as in the middle of a row of blocks, and then the quotient of the numerator by
    the denominator is stored over the whole output buffer, whatever it held. -/
noncomputable def runC (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc1 : ¬cond1 i) (hc2 : cond2 i)
    (x0 : Vec F S1x1024x1024 .bf16) (x1 : Vec F S1x512x1024 .bf16) (xM : Vec F S1024x1 .f32) (xL : Vec F S1024x1 .f32) (xA : Vec F S1024x1024 .f32) :
    Σ' (L2 : List (View.Piece (Elt F) S1x1024x1024 .f32)) (LM : List (View.Piece (Elt F) S1024x1 .f32)) (LL : List (View.Piece (Elt F) S1024x1 .f32)), { LA : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ owns (c : Thread nD τ) arg6 fullShare xM ∗ owns (c : Thread nD τ) arg7 fullShare xL ∗ owns (c : Thread nD τ) arg8 fullShare xA
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LL) ∗ (∃ f, arg8.view.loc (c : Thread nD τ) ↦[arg8.view.set]{fullShare} arg8.view.writes (Elt F) f LA)) -∗ K ⟨⟩))
          ⊢ wp frame (wpE (defs₀ (F := F)) Variants.none c none) E (cc0__attn_kernel i arg3 harg3 arg4 harg4 arg5 harg5 arg6 harg6 arg7 harg7 arg8 harg8) K } := by
  refine ⟨?_, ?_, ?_, ?_, fun E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%d2, %f2, -, H2⟩, ⟨%fM, %hfM, HM⟩, ⟨%fL, %hfL, HL⟩, ⟨%fA, %hfA, HA⟩, Hk⟩
    obtain rfl := harg3.eq_unread hf0; obtain rfl := harg4.eq_unread hf1
    obtain rfl := harg6.eq_unread hfM; obtain rfl := harg7.eq_unread hfL; obtain rfl := harg8.eq_unread hfA
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [HM]; · iexists _; iexact HM
    isplitl [HL]; · iexists _; iexact HL
    iexists _; iexact HA

end Cert.Kernel.Hand

end
-- ==== Proof.KFrame.lean ====
/-
  The frame of the attention kernel, and what its buffers hold point by point.  The state carried in scratch is
  the triple (running maximum, running denominator, running numerator) of a block of 1024 query rows over the key
  blocks seen so far; each point folds one key block of 512 rows into it, starting afresh where ki = 0, and where
  ki = 7 the output block is the numerator divided by the denominator.  The two input windows read one array, whose
  ownership is dealt to them in halves.
-/
import proofs.«103166_j2052994367763_2_alg».proof.Proof.KRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The carried state: maximum, denominator, numerator. -/
abbrev St (F : FTy → Type) [FloatOps F] : Type := Vec F S1024x1 .f32 × Vec F S1024x1 .f32 × Vec F S1024x1024 .f32

/-! ## The three runs at a grid point -/

abbrev RA (c : Dev nD) (t : Fin cfg0.N) (h1 : cond1 (grid0.coords t)) (h2 : ¬cond2 (grid0.coords t))
    (x0 : Vec F S1x1024x1024 .bf16) (x1 : Vec F S1x512x1024 .bf16) :=
  runA (F := F) c (grid0.coords t) (ms0 t) (hs0 t) (ms1 t) (hs1 t) (ms2 t) (hs2 t) scM (Memref.isWhole_whole _) scL (Memref.isWhole_whole _) scA (Memref.isWhole_whole _) h1 h2 x0 x1
abbrev RB (c : Dev nD) (t : Fin cfg0.N) (h1 : ¬cond1 (grid0.coords t)) (h2 : ¬cond2 (grid0.coords t))
    (x0 : Vec F S1x1024x1024 .bf16) (x1 : Vec F S1x512x1024 .bf16) (s : St F) :=
  runB (F := F) c (grid0.coords t) (ms0 t) (hs0 t) (ms1 t) (hs1 t) (ms2 t) (hs2 t) scM (Memref.isWhole_whole _) scL (Memref.isWhole_whole _) scA (Memref.isWhole_whole _) h1 h2 x0 x1 s.1 s.2.1 s.2.2
abbrev RC (c : Dev nD) (t : Fin cfg0.N) (h1 : ¬cond1 (grid0.coords t)) (h2 : cond2 (grid0.coords t))
    (x0 : Vec F S1x1024x1024 .bf16) (x1 : Vec F S1x512x1024 .bf16) (s : St F) :=
  runC (F := F) c (grid0.coords t) (ms0 t) (hs0 t) (ms1 t) (hs1 t) (ms2 t) (hs2 t) scM (Memref.isWhole_whole _) scL (Memref.isWhole_whole _) scA (Memref.isWhole_whole _) h1 h2 x0 x1 s.1 s.2.1 s.2.2

/-! ## Each buffer's stores cover it -/

section Covers
variable (c : Dev nD) (t : Fin cfg0.N) (x0 : Vec F S1x1024x1024 .bf16) (x1 : Vec F S1x512x1024 .bf16) (s : St F)

theorem covA_M (h1 : cond1 (grid0.coords t)) (h2 : ¬cond2 (grid0.coords t)) (y : S1024x1.Idx) : ∃ pc ∈ (RA c t h1 h2 x0 x1).1, y ∈ pc.1.set :=
  View.cover_of_tiledL (RA c t h1 h2 x0 x1).1 S1024x1.size (by sl_kernel_rfl) y
theorem covA_L (h1 : cond1 (grid0.coords t)) (h2 : ¬cond2 (grid0.coords t)) (y : S1024x1.Idx) : ∃ pc ∈ (RA c t h1 h2 x0 x1).2.1, y ∈ pc.1.set :=
  View.cover_of_tiledL (RA c t h1 h2 x0 x1).2.1 S1024x1.size (by sl_kernel_rfl) y
theorem covA_A (h1 : cond1 (grid0.coords t)) (h2 : ¬cond2 (grid0.coords t)) (y : S1024x1024.Idx) : ∃ pc ∈ (RA c t h1 h2 x0 x1).2.2.1, y ∈ pc.1.set :=
  View.cover_of_tiledL (RA c t h1 h2 x0 x1).2.2.1 S1024x1024.size (by sl_kernel_rfl) y
theorem covB_M (h1 : ¬cond1 (grid0.coords t)) (h2 : ¬cond2 (grid0.coords t)) (y : S1024x1.Idx) : ∃ pc ∈ (RB c t h1 h2 x0 x1 s).1, y ∈ pc.1.set :=
  View.cover_of_tiledL (RB c t h1 h2 x0 x1 s).1 S1024x1.size (by sl_kernel_rfl) y
theorem covB_L (h1 : ¬cond1 (grid0.coords t)) (h2 : ¬cond2 (grid0.coords t)) (y : S1024x1.Idx) : ∃ pc ∈ (RB c t h1 h2 x0 x1 s).2.1, y ∈ pc.1.set :=
  View.cover_of_tiledL (RB c t h1 h2 x0 x1 s).2.1 S1024x1.size (by sl_kernel_rfl) y
theorem covB_A (h1 : ¬cond1 (grid0.coords t)) (h2 : ¬cond2 (grid0.coords t)) (y : S1024x1024.Idx) : ∃ pc ∈ (RB c t h1 h2 x0 x1 s).2.2.1, y ∈ pc.1.set :=
  View.cover_of_tiledL (RB c t h1 h2 x0 x1 s).2.2.1 S1024x1024.size (by sl_kernel_rfl) y
theorem covC_O (h1 : ¬cond1 (grid0.coords t)) (h2 : cond2 (grid0.coords t)) (y : S1x1024x1024.Idx) : ∃ pc ∈ (RC c t h1 h2 x0 x1 s).1, y ∈ pc.1.set :=
  View.cover_of_tiledL (RC c t h1 h2 x0 x1 s).1 S1x1024x1024.size (by sl_kernel_rfl) y
theorem covC_M (h1 : ¬cond1 (grid0.coords t)) (h2 : cond2 (grid0.coords t)) (y : S1024x1.Idx) : ∃ pc ∈ (RC c t h1 h2 x0 x1 s).2.1, y ∈ pc.1.set :=
  View.cover_of_tiledL (RC c t h1 h2 x0 x1 s).2.1 S1024x1.size (by sl_kernel_rfl) y
theorem covC_L (h1 : ¬cond1 (grid0.coords t)) (h2 : cond2 (grid0.coords t)) (y : S1024x1.Idx) : ∃ pc ∈ (RC c t h1 h2 x0 x1 s).2.2.1, y ∈ pc.1.set :=
  View.cover_of_tiledL (RC c t h1 h2 x0 x1 s).2.2.1 S1024x1.size (by sl_kernel_rfl) y
theorem covC_A (h1 : ¬cond1 (grid0.coords t)) (h2 : cond2 (grid0.coords t)) (y : S1024x1024.Idx) : ∃ pc ∈ (RC c t h1 h2 x0 x1 s).2.2.2.1, y ∈ pc.1.set :=
  View.cover_of_tiledL (RC c t h1 h2 x0 x1 s).2.2.2.1 S1024x1024.size (by sl_kernel_rfl) y

/-- What each case leaves in scratch: the canonical contents of its stores. -/
def resA (h1 : cond1 (grid0.coords t)) (h2 : ¬cond2 (grid0.coords t)) : St F :=
  (View.canon (RA c t h1 h2 x0 x1).1, View.canon (RA c t h1 h2 x0 x1).2.1, View.canon (RA c t h1 h2 x0 x1).2.2.1)
def resB (h1 : ¬cond1 (grid0.coords t)) (h2 : ¬cond2 (grid0.coords t)) : St F :=
  (View.canon (RB c t h1 h2 x0 x1 s).1, View.canon (RB c t h1 h2 x0 x1 s).2.1, View.canon (RB c t h1 h2 x0 x1 s).2.2.1)
def resC (h1 : ¬cond1 (grid0.coords t)) (h2 : cond2 (grid0.coords t)) : St F :=
  (View.canon (RC c t h1 h2 x0 x1 s).2.1, View.canon (RC c t h1 h2 x0 x1 s).2.2.1, View.canon (RC c t h1 h2 x0 x1 s).2.2.2.1)
/-- What the last case leaves in the output's staging buffer. -/
def outC (h1 : ¬cond1 (grid0.coords t)) (h2 : cond2 (grid0.coords t)) : Vec F S1x1024x1024 .f32 :=
  View.canon (RC c t h1 h2 x0 x1 s).1

end Covers

/-- A buffer after covering stores is owned at their canonical contents. -/
theorem owns_canon {s : Shape} {e : EltTy} (c : Dev nD) (arg : Memref sig .tc .vmem s e) (L : List (View.Piece (Elt F) s e))
    (hcov : ∀ y, ∃ pc ∈ L, y ∈ pc.1.set) :
    iprop(∃ f, arg.view.loc (c : Thread nD τ) ↦[arg.view.set]{fullShare} arg.view.writes (Elt F) f L)
      ⊢ (owns (c : Thread nD τ) arg fullShare (View.canon L) : sProp 𝕄) := by
  iintro ⟨%f, H⟩
  unfold owns; iexists _; isplitr
  swap; · iexact H
  ipureintro; exact View.read_writes_eq_canon _ _ _ hcov

/-! ## The state point by point -/

/-- A state nothing consults (before the first point). -/
def st0 : St F := (scM.view.read (Elt F) scM.view.junk, scL.view.read (Elt F) scL.view.junk, scA.view.read (Elt F) scA.view.junk)

/-- The state after the body at point t, from the state before it. -/
def stepAt (c : Dev nD) (t : Fin cfg0.N) (prev : St F) : St F :=
  if h1 : t.val % 8 = 0 then
    resA c t (iblk m c 0 t) (iblk m c 1 t) ((hcond1 t).mpr h1) (fun h => by have := (hcond2 t).mp h; omega)
  else if h2 : t.val % 8 = 7 then
    resC c t (iblk m c 0 t) (iblk m c 1 t) prev (fun h => h1 ((hcond1 t).mp h)) ((hcond2 t).mpr h2)
  else
    resB c t (iblk m c 0 t) (iblk m c 1 t) prev (fun h => h1 ((hcond1 t).mp h)) (fun h => h2 ((hcond2 t).mp h))

def stAt (c : Dev nD) : (n : ℕ) → n < cfg0.N → St F
  | 0, hn => stepAt m c ⟨0, hn⟩ st0
  | n + 1, hn => stepAt m c ⟨n + 1, hn⟩ (stAt c n (Nat.lt_of_succ_lt hn))

/-- The state before point t. -/
def prevAt (c : Dev nD) (t : Fin cfg0.N) : St F :=
  match t with
  | ⟨0, _⟩ => st0
  | ⟨n + 1, hn⟩ => stAt m c n (Nat.lt_of_succ_lt hn)

theorem stAt_eq (c : Dev nD) (t : Fin cfg0.N) : stAt m c t.val t.isLt = stepAt m c t (prevAt m c t) := by
  obtain ⟨n, hn⟩ := t
  cases n <;> rfl

theorem prevAt_pos (c : Dev nD) (t : Fin cfg0.N) (hz : t.val ≠ 0) :
    prevAt m c t = stAt m c (t.val - 1) (Nat.lt_of_le_of_lt (Nat.sub_le _ _) t.isLt) := by
  obtain ⟨n, hn⟩ := t
  cases n with
  | zero => exact absurd rfl hz
  | succ n => rfl

/-- What the output's staging buffer holds after the body where it is stored (elsewhere nothing consults it). -/
def outAt (c : Dev nD) (t : Fin cfg0.N) : Vec F S1x1024x1024 .f32 :=
  if h2 : t.val % 8 = 7 then
    outC c t (iblk m c 0 t) (iblk m c 1 t) (prevAt m c t) (fun h => by have := (hcond1 t).mp h; omega) ((hcond2 t).mpr h2)
  else (ms2 t).view.read (Elt F) (ms2 t).view.junk

/-! ## The invariant: the scratch buffers at the state -/

def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM fullShare (stAt m c n hn).1 ∗ owns (c : Thread nD τ) scL fullShare (stAt m c n hn).2.1
      ∗ owns (c : Thread nD τ) scA fullShare (stAt m c n hn).2.2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scM fullShare (stAt m c n hn).1 ∗ owns (c : Thread nD τ) scL fullShare (stAt m c n hn).2.1
      ∗ owns (c : Thread nD τ) scA fullShare (stAt m c n hn).2.2) := rfl

theorem PhiS_pos (c : Dev nD) (n : ℕ) (h : n ≤ cfg0.N) (hz : n ≠ 0) :
    PhiS m c n h = iprop(owns (c : Thread nD τ) scM fullShare (stAt m c (n - 1) (by omega)).1 ∗ owns (c : Thread nD τ) scL fullShare (stAt m c (n - 1) (by omega)).2.1
      ∗ owns (c : Thread nD τ) scA fullShare (stAt m c (n - 1) (by omega)).2.2) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

end Cert.Kernel.Hand

end
-- ==== Proof.KBody.lean ====
import proofs.«103166_j2052994367763_2_alg».proof.Proof.KFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem leaves0 (c : Dev nD) (t : Fin cfg0.N) :
    (dats m 0 c).leavesExact 0 t = owns (c : Thread nD τ) (ms0 t) fullShare (iblk m c 0 t) := by
  unfold Dat.leavesExact; rw [liveAt0 t, after0]
theorem leaves1 (c : Dev nD) (t : Fin cfg0.N) :
    (dats m 0 c).leavesExact 1 t = owns (c : Thread nD τ) (ms1 t) fullShare (iblk m c 1 t) := by
  unfold Dat.leavesExact; rw [liveAt1 t, after1]

set_option maxHeartbeats 4800000 in
/-- The body at any point: the inputs' buffers hold their blocks; by the point's place in its row of key blocks one
    of the three runs applies; the invariant hands the scratch over at the state before and takes it back at the
    state after. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ, leaves0, leaves1, stAt_eq]
  have hN : t.val < 128 := lt_of_lt_of_eq t.isLt (show cfg0.N = 128 from N_0)
  by_cases h1 : t.val % 8 = 0
  · have h2 : ¬ t.val % 8 = 7 := by omega
    have hc1 : cond1 (grid0.coords t) := (hcond1 t).mpr h1
    have hc2 : ¬cond2 (grid0.coords t) := fun h => h2 ((hcond2 t).mp h)
    rw [Dat.leavesExact_idle (dats m 0 c) 2 t (idleAt2 t hc2) (noFlush2 t hc2)]
    unfold stepAt; rw [dif_pos h1]; unfold resA; dsimp only
    by_cases hz : t.val = 0
    · rw [PhiS_castSucc m c t, PhiS_zero m c _ _ hz, scopedRest_eq]
      iintro ⟨⟨HM, HL, HA⟩, Ho, ⟨%d0, H0⟩, ⟨%d1, H1⟩, ⟨%d2, H2⟩⟩
      iapply ((RA c t hc1 hc2 (iblk m c 0 t) (iblk m c 1 t)).2.2.2 _ Set.univ _)
      isplitl [H0]; · iexact H0
      isplitl [H1]; · iexact H1
      isplitl [H2]; · iexact H2
      isplitl [HM]; · iexact HM
      isplitl [HL]; · iexact HL
      isplitl [HA]; · iexact HA
      iintro ⟨H0, H1, H2, HM, HL, HA⟩
      isplitl [HM HL HA]
      · isplitl [HM]; · iapply (owns_canon c scM _ (covA_M c t _ _ hc1 hc2)); iexact HM
        isplitl [HL]; · iapply (owns_canon c scL _ (covA_L c t _ _ hc1 hc2)); iexact HL
        iapply (owns_canon c scA _ (covA_A c t _ _ hc1 hc2)); iexact HA
      isplitl [Ho]; · iexact Ho
      isplitl [H0]; · iexact H0
      isplitl [H1]; · iexact H1
      iexists _; iexact H2
    · rw [PhiS_castSucc m c t, PhiS_pos m c _ _ hz]
      iintro ⟨⟨HM, HL, HA⟩, Ho, ⟨%d0, H0⟩, ⟨%d1, H1⟩, ⟨%d2, H2⟩⟩
      iapply ((RA c t hc1 hc2 (iblk m c 0 t) (iblk m c 1 t)).2.2.2 _ Set.univ _)
      isplitl [H0]; · iexact H0
      isplitl [H1]; · iexact H1
      isplitl [H2]; · iexact H2
      isplitl [HM]; · iexists _; iexact HM
      isplitl [HL]; · iexists _; iexact HL
      isplitl [HA]; · iexists _; iexact HA
      iintro ⟨H0, H1, H2, HM, HL, HA⟩
      isplitl [HM HL HA]
      · isplitl [HM]; · iapply (owns_canon c scM _ (covA_M c t _ _ hc1 hc2)); iexact HM
        isplitl [HL]; · iapply (owns_canon c scL _ (covA_L c t _ _ hc1 hc2)); iexact HL
        iapply (owns_canon c scA _ (covA_A c t _ _ hc1 hc2)); iexact HA
      isplitl [Ho]; · iexact Ho
      isplitl [H0]; · iexact H0
      isplitl [H1]; · iexact H1
      iexists _; iexact H2
  · have hz : t.val ≠ 0 := fun h => h1 (by rw [h])
    have hc1 : ¬cond1 (grid0.coords t) := fun h => h1 ((hcond1 t).mp h)
    rw [PhiS_castSucc m c t, PhiS_pos m c _ _ hz, ← prevAt_pos m c t hz]
    by_cases h2 : t.val % 8 = 7
    · have hc2 : cond2 (grid0.coords t) := (hcond2 t).mpr h2
      rw [show (dats m 0 c).leavesExact 2 t = owns (c : Thread nD τ) (ms2 t) fullShare ((dats m 0 c).after 2 t) from by
        unfold Dat.leavesExact; rw [liveAt2 t hc2], after2]
      unfold stepAt outAt; rw [dif_neg h1, dif_pos h2, dif_pos h2]; unfold resC outC; dsimp only
      iintro ⟨⟨HM, HL, HA⟩, Ho, ⟨%d0, H0⟩, ⟨%d1, H1⟩, ⟨%d2, H2⟩⟩
      iapply ((RC c t hc1 hc2 (iblk m c 0 t) (iblk m c 1 t) (prevAt m c t)).2.2.2.2 Set.univ _)
      isplitl [H0]; · iexact H0
      isplitl [H1]; · iexact H1
      isplitl [H2]; · iexists _; iexact H2
      isplitl [HM]; · iexact HM
      isplitl [HL]; · iexact HL
      isplitl [HA]; · iexact HA
      iintro ⟨H0, H1, H2, HM, HL, HA⟩
      isplitl [HM HL HA]
      · isplitl [HM]; · iapply (owns_canon c scM _ (covC_M c t _ _ _ hc1 hc2)); iexact HM
        isplitl [HL]; · iapply (owns_canon c scL _ (covC_L c t _ _ _ hc1 hc2)); iexact HL
        iapply (owns_canon c scA _ (covC_A c t _ _ _ hc1 hc2)); iexact HA
      isplitl [Ho]; · iexact Ho
      isplitl [H0]; · iexact H0
      isplitl [H1]; · iexact H1
      iapply (owns_canon c (ms2 t) _ (covC_O c t _ _ _ hc1 hc2)); iexact H2
    · have hc2 : ¬cond2 (grid0.coords t) := fun h => h2 ((hcond2 t).mp h)
      rw [Dat.leavesExact_idle (dats m 0 c) 2 t (idleAt2 t hc2) (noFlush2 t hc2)]
      unfold stepAt; rw [dif_neg h1, dif_neg h2]; unfold resB; dsimp only
      iintro ⟨⟨HM, HL, HA⟩, Ho, ⟨%d0, H0⟩, ⟨%d1, H1⟩, ⟨%d2, H2⟩⟩
      iapply ((RB c t hc1 hc2 (iblk m c 0 t) (iblk m c 1 t) (prevAt m c t)).2.2.2 _ Set.univ _)
      isplitl [H0]; · iexact H0
      isplitl [H1]; · iexact H1
      isplitl [H2]; · iexact H2
      isplitl [HM]; · iexact HM
      isplitl [HL]; · iexact HL
      isplitl [HA]; · iexact HA
      iintro ⟨H0, H1, H2, HM, HL, HA⟩
      isplitl [HM HL HA]
      · isplitl [HM]; · iapply (owns_canon c scM _ (covB_M c t _ _ _ hc1 hc2)); iexact HM
        isplitl [HL]; · iapply (owns_canon c scL _ (covB_L c t _ _ _ hc1 hc2)); iexact HL
        iapply (owns_canon c scA _ (covB_A c t _ _ _ hc1 hc2)); iexact HA
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KLaunch.lean ====
import proofs.«103166_j2052994367763_2_alg».proof.Proof.KBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Entering and leaving the region -/

/-- What the launch hands the region is the invariant before the first point. -/
theorem hin (c : Dev nD) :
    iprop((emp : sProp 𝕄) ∗ Pipeline.scopedRest (Ix := Unit) (Name := ℕ) (U := UR sig nD τ) (Lvl := ℕ) (Val := Elt F) spec0 c) ⊢ (dats m 0 c).Φ 0 := by
  rw [show (dats m 0 c).Φ 0 = PhiS m c 0 (Nat.zero_le _) from rfl, PhiS_zero m c 0 _ rfl]
  iintro ⟨-, H⟩; iexact H

/-- After the last point the scratch buffers' contents are forgotten. -/
theorem hout (c : Dev nD) :
    (dats m 0 c).Φ (Fin.last cfg0.N) ⊢ iprop((emp : sProp 𝕄) ∗ Pipeline.scopedRest (Ix := Unit) (Name := ℕ) (U := UR sig nD τ) (Lvl := ℕ) (Val := Elt F) spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), scopedRest_eq]
  iintro ⟨HM, HL, HA⟩
  isplitr; · iempintro
  isplitl [HM]; · iexists _; iexact HM
  isplitl [HL]; · iexists _; iexact HL
  iexists _; iexact HA

/-! ## One array behind two input windows -/

theorem share0 (c : Dev nD) : (dats m 0 c).share 0 = fullShare.left := rfl
theorem share1 (c : Dev nD) : (dats m 0 c).share 1 = fullShare.right := rfl
theorem share2 (c : Dev nD) : (dats m 0 c).share 2 = fullShare := rfl

/-- The converted array, whole at the full share, is dealt in halves to the query window and the key window; the
    result array goes whole to the output window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_eq_bigSepL_of_eq [main_v0, main_v1] (by decide) (by decide), bigSep_W0]
  rw [share0, share1, share2]
  rw [(arr_whole0 0).set_eq_univ, (arr_whole0 2).set_eq_univ]
  show iprop((((c : Thread nD τ).loc main_v0) ↦{fullShare} V m c main_v0) ∗ (((c : Thread nD τ).loc main_v1) ↦{fullShare} V m c main_v1)) ⊢ _
  iintro ⟨H0, H1⟩
  ihave H0' := (pointsTo_share (PosShare.mem_left_op_right fullShare)).1 $$ H0
  icases H0' with ⟨Ha, Hb⟩
  isplitl [Ha]; · iexact Ha
  isplitl [Hb]; · iexact Hb
  iexact H1

/-! ## The run and the frame -/

set_option backward.isDefEq.respectTransparency.types false in
/-- Every weakly fair execution of the program terminates without a fault; each window's array ends at what the
    write-backs leave of it, and the argument as launched. -/
theorem run_main : θ_run defs (onTc (τ := τ) (main (F := F))) ⟨m, fun _ => 0, ρ⟩ (fun r => ∀ c : Dev nD,
      (∀ w, r.2.mem (((cfg0).spec w).arr.view.loc (c.tc : Thread nD τ)) = (dats m 0 c).arrAt w cfg0.N)
      ∧ r.2.mem ((c.tc : Thread nD τ).loc main_arg0) = m ((c.tc : Thread nD τ).loc main_arg0)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, ((h c).2 main_arg0 (Pipeline.mem_restRefs_of main_arg0 (by decide) (by decide))).trans (V_main_arg0 m c)⟩)

/-- The frame: the program runs and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.Kernel.Hand

end
-- ==== Proof.KIBase.lean ====
/-
  What the body runs of the attention kernel share.  The array the region finds is the argument converted once
  by the host; the two input windows read it at the block (b, qi, 0) of 1024 query rows and at the block
  (b, ki, 0) of 512 key rows, the output window writes the block (b, qi, 0).  The grid's 128 points are
  t = 32·b + 8·qi + ki: the running maximum, denominator and numerator kept in scratch are reset where
  ki = 0 (t ≡ 0 mod 8) and the output block is stored where ki = 7 (t ≡ 7 mod 8).
-/
import proofs.«103166_j2052994367763_2_alg».proof.Proof.Gen.KernelIdeal.Launch
import proofs.«103166_j2052994367763_2_alg».proof.Proof.Gen.KernelIdeal.Skeleton
import proofs.«103166_j2052994367763_2_alg».proof.Proof.Gen.KernelIdeal.Points
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host's conversion, then the region -/

/-- The buffers as the region finds them: after the host's one conversion of the argument. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the conversion followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The conversion writes its own result only: the region finds the argument as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query window's staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The key window's staging buffer holds its block at every point. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, decided over the grid -/

/-- The reset's condition: the key-block coordinate is 0. -/
abbrev cond1 (i : grid0.Coords) : Prop := (Scalar.cmpi .ne (Scalar.extui (Scalar.cmpi .eq (BitVec.ofNat 32 (i 2).val) 0#32)) 0#32) = 1#1
theorem hcond1 : ∀ t : Fin cfg0.N, cond1 (grid0.coords t) ↔ t.val % 8 = 0 :=
  (by decide +kernel : ∀ t : Fin grid0.N, cond1 (grid0.coords t) ↔ t.val % 8 = 0)

/-- The output store's condition: the key-block coordinate is 7. -/
abbrev cond2 (i : grid0.Coords) : Prop := k0_cond2 i = 1#1
theorem hcond2 : ∀ t : Fin cfg0.N, cond2 (grid0.coords t) ↔ t.val % 8 = 7 :=
  (by decide +kernel : ∀ t : Fin grid0.N, cond2 (grid0.coords t) ↔ t.val % 8 = 7)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
/-- Where the output is not stored the window is idle and is not written back. -/
theorem idleAt2 : ∀ t : Fin cfg0.N, ¬cond2 (grid0.coords t) → cfg0.idle 2 (grid0.coords t) = true := by decide +kernel
theorem noFlush2 : ∀ t : Fin cfg0.N, ¬cond2 (grid0.coords t) → (cfg0.win 2).flush t = false := by decide +kernel
theorem liveAt2 : ∀ t : Fin cfg0.N, cond2 (grid0.coords t) → cfg0.idle 2 (grid0.coords t) = false := by decide +kernel

/-! ## The staging and scratch memrefs -/

abbrev ms0 (t : Fin cfg0.N) : Memref sig .tc .vmem S1x1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x1024 .f32 := win0_2.stage (cfg0.slots t 2)
abbrev hs2 (t : Fin cfg0.N) : (ms2 t).IsWhole := hstage0_2 ((cfg0.slots t 2).cast nbuf0_2)
/-- The running maximum, the running denominator, the running numerator. -/
abbrev scM : Memref sig .tc .vmem S1024x1 .f32 := Memref.whole cc0_scratch0
abbrev scL : Memref sig .tc .vmem S1024x1 .f32 := Memref.whole cc0_scratch1
abbrev scA : Memref sig .tc .vmem S1024x1024 .f32 := Memref.whole cc0_scratch2

/-- The scoped buffers the pipeline does not stage are the three scratch buffers, each owned at some contents. -/
theorem scopedRest_eq (c : Dev nD) :
    (Pipeline.scopedRest (Ix := Unit) (Name := ℕ) (U := UR sig nD τ) (Lvl := ℕ) (Val := Elt F) spec0 c : sProp 𝕄)
      = iprop((∃ d, owns (c : Thread nD τ) scM fullShare d) ∗ (∃ d, owns (c : Thread nD τ) scL fullShare d) ∗ (∃ d, owns (c : Thread nD τ) scA fullShare d)) := by
  rw [scopedRest0_eq]; simp only [scM, scL, scA, owns_whole]; try rfl

end Cert.KernelIdeal.Hand

end
-- ==== Proof.KIRuns.lean ====
import proofs.«103166_j2052994367763_2_alg».proof.Proof.KIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point with ki = 0: whatever the scratch buffers hold, the body resets them (maximum -∞, denominator
    and numerator 0), then folds this block in and stores each whole; the output buffer is untouched. -/
noncomputable def runA (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc1 : cond1 i) (hc2 : ¬cond2 i)
    (x0 : Vec F S1x1024x1024 .bf16) (x1 : Vec F S1x512x1024 .bf16) :
    Σ' (LM : List (View.Piece (Elt F) S1024x1 .f32)) (LL : List (View.Piece (Elt F) S1024x1 .f32)), { LA : List (View.Piece (Elt F) S1024x1024 .f32) //
      ∀ (xi2 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare xi2
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare xi2
                ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LL) ∗ (∃ f, arg8.view.loc (c : Thread nD τ) ↦[arg8.view.set]{fullShare} arg8.view.writes (Elt F) f LA)) -∗ K ⟨⟩))
          ⊢ wp frame (wpE (defs₀ (F := F)) Variants.none c none) E (cc0__attn_kernel i arg3 harg3 arg4 harg4 arg5 harg5 arg6 harg6 arg7 harg7 arg8 harg8) K } := by
  refine ⟨?_, ?_, ?_, fun xi2 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%dM, %fM, -, HM⟩, ⟨%dL, %fL, -, HL⟩, ⟨%dA, %fA, -, HA⟩, Hk⟩
    obtain rfl := harg3.eq_unread hf0; obtain rfl := harg4.eq_unread hf1; obtain rfl := harg5.eq_unread hf2
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HM]; · iexists _; iexact HM
    isplitl [HL]; · iexists _; iexact HL
    iexists _; iexact HA

set_option maxHeartbeats 1000000 in
/-- The body at a point with 0 < ki < 7: the scratch buffers hold the running maximum, denominator and numerator of
    the blocks before; the body rescales them by this block and stores each whole; the output buffer is untouched.
    The pieces each scratch ends with are found by the run. -/
noncomputable def runB (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc1 : ¬cond1 i) (hc2 : ¬cond2 i)
    (x0 : Vec F S1x1024x1024 .bf16) (x1 : Vec F S1x512x1024 .bf16) (xM : Vec F S1024x1 .f32) (xL : Vec F S1024x1 .f32) (xA : Vec F S1024x1024 .f32) :
    Σ' (LM : List (View.Piece (Elt F) S1024x1 .f32)) (LL : List (View.Piece (Elt F) S1024x1 .f32)), { LA : List (View.Piece (Elt F) S1024x1024 .f32) //
      ∀ (xi2 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare xi2
            ∗ owns (c : Thread nD τ) arg6 fullShare xM ∗ owns (c : Thread nD τ) arg7 fullShare xL ∗ owns (c : Thread nD τ) arg8 fullShare xA
            ∗ (iprop(owns (c : Thread nD τ) arg3 fullShare x0 ∗ owns (c : Thread nD τ) arg4 fullShare x1 ∗ owns (c : Thread nD τ) arg5 fullShare xi2
                ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LL) ∗ (∃ f, arg8.view.loc (c : Thread nD τ) ↦[arg8.view.set]{fullShare} arg8.view.writes (Elt F) f LA)) -∗ K ⟨⟩))
          ⊢ wp frame (wpE (defs₀ (F := F)) Variants.none c none) E (cc0__attn_kernel i arg3 harg3 arg4 harg4 arg5 harg5 arg6 harg6 arg7 harg7 arg8 harg8) K } := by
  refine ⟨?_, ?_, ?_, fun xi2 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%fM, %hfM, HM⟩, ⟨%fL, %hfL, HL⟩, ⟨%fA, %hfA, HA⟩, Hk⟩
    obtain rfl := harg3.eq_unread hf0; obtain rfl := harg4.eq_unread hf1; obtain rfl := harg5.eq_unread hf2
    obtain rfl := harg6.eq_unread hfM; obtain rfl := harg7.eq_unread hfL; obtain rfl := harg8.eq_unread hfA
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HM]; · iexists _; iexact HM
    isplitl [HL]; · iexists _; iexact HL
    iexists _; iexact HA

set_option maxHeartbeats 1000000 in
/-- The body at a point with ki = 7: as in the middle of a row of blocks, and then the quotient of the numerator by
    the denominator is stored over the whole output buffer, whatever it held. -/
noncomputable def runC (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc1 : ¬cond1 i) (hc2 : cond2 i)
    (x0 : Vec F S1x1024x1024 .bf16) (x1 : Vec F S1x512x1024 .bf16) (xM : Vec F S1024x1 .f32) (xL : Vec F S1024x1 .f32) (xA : Vec F S1024x1024 .f32) :
    Σ' (L2 : List (View.Piece (Elt F) S1x1024x1024 .f32)) (LM : List (View.Piece (Elt F) S1024x1 .f32)) (LL : List (View.Piece (Elt F) S1024x1 .f32)), { LA : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ owns (c : Thread nD τ) arg6 fullShare xM ∗ owns (c : Thread nD τ) arg7 fullShare xL ∗ owns (c : Thread nD τ) arg8 fullShare xA
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f LM) ∗ (∃ f, arg7.view.loc (c : Thread nD τ) ↦[arg7.view.set]{fullShare} arg7.view.writes (Elt F) f LL) ∗ (∃ f, arg8.view.loc (c : Thread nD τ) ↦[arg8.view.set]{fullShare} arg8.view.writes (Elt F) f LA)) -∗ K ⟨⟩))
          ⊢ wp frame (wpE (defs₀ (F := F)) Variants.none c none) E (cc0__attn_kernel i arg3 harg3 arg4 harg4 arg5 harg5 arg6 harg6 arg7 harg7 arg8 harg8) K } := by
  refine ⟨?_, ?_, ?_, ?_, fun E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%d2, %f2, -, H2⟩, ⟨%fM, %hfM, HM⟩, ⟨%fL, %hfL, HL⟩, ⟨%fA, %hfA, HA⟩, Hk⟩
    obtain rfl := harg3.eq_unread hf0; obtain rfl := harg4.eq_unread hf1
    obtain rfl := harg6.eq_unread hfM; obtain rfl := harg7.eq_unread hfL; obtain rfl := harg8.eq_unread hfA
    sl_exec (disch := first | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [HM]; · iexists _; iexact HM
    isplitl [HL]; · iexists _; iexact HL
    iexists _; iexact HA

end Cert.KernelIdeal.Hand

end
-- ==== Proof.KIFrame.lean ====
/-
  The frame of the attention kernel, and what its buffers hold point by point.  The state carried in scratch is
  the triple (running maximum, running denominator, running numerator) of a block of 1024 query rows over the key
  blocks seen so far; each point folds one key block of 512 rows into it, starting afresh where ki = 0, and where
  ki = 7 the output block is the numerator divided by the denominator.  The two input windows read one array, whose
  ownership is dealt to them in halves.
-/
import proofs.«103166_j2052994367763_2_alg».proof.Proof.KIRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The carried state: maximum, denominator, numerator. -/
abbrev St (F : FTy → Type) [FloatOps F] : Type := Vec F S1024x1 .f32 × Vec F S1024x1 .f32 × Vec F S1024x1024 .f32

/-! ## The three runs at a grid point -/

abbrev RA (c : Dev nD) (t : Fin cfg0.N) (h1 : cond1 (grid0.coords t)) (h2 : ¬cond2 (grid0.coords t))
    (x0 : Vec F S1x1024x1024 .bf16) (x1 : Vec F S1x512x1024 .bf16) :=
  runA (F := F) c (grid0.coords t) (ms0 t) (hs0 t) (ms1 t) (hs1 t) (ms2 t) (hs2 t) scM (Memref.isWhole_whole _) scL (Memref.isWhole_whole _) scA (Memref.isWhole_whole _) h1 h2 x0 x1
abbrev RB (c : Dev nD) (t : Fin cfg0.N) (h1 : ¬cond1 (grid0.coords t)) (h2 : ¬cond2 (grid0.coords t))
    (x0 : Vec F S1x1024x1024 .bf16) (x1 : Vec F S1x512x1024 .bf16) (s : St F) :=
  runB (F := F) c (grid0.coords t) (ms0 t) (hs0 t) (ms1 t) (hs1 t) (ms2 t) (hs2 t) scM (Memref.isWhole_whole _) scL (Memref.isWhole_whole _) scA (Memref.isWhole_whole _) h1 h2 x0 x1 s.1 s.2.1 s.2.2
abbrev RC (c : Dev nD) (t : Fin cfg0.N) (h1 : ¬cond1 (grid0.coords t)) (h2 : cond2 (grid0.coords t))
    (x0 : Vec F S1x1024x1024 .bf16) (x1 : Vec F S1x512x1024 .bf16) (s : St F) :=
  runC (F := F) c (grid0.coords t) (ms0 t) (hs0 t) (ms1 t) (hs1 t) (ms2 t) (hs2 t) scM (Memref.isWhole_whole _) scL (Memref.isWhole_whole _) scA (Memref.isWhole_whole _) h1 h2 x0 x1 s.1 s.2.1 s.2.2

/-! ## Each buffer's stores cover it -/

section Covers
variable (c : Dev nD) (t : Fin cfg0.N) (x0 : Vec F S1x1024x1024 .bf16) (x1 : Vec F S1x512x1024 .bf16) (s : St F)

theorem covA_M (h1 : cond1 (grid0.coords t)) (h2 : ¬cond2 (grid0.coords t)) (y : S1024x1.Idx) : ∃ pc ∈ (RA c t h1 h2 x0 x1).1, y ∈ pc.1.set :=
  View.cover_of_tiledL (RA c t h1 h2 x0 x1).1 S1024x1.size (by sl_kernel_rfl) y
theorem covA_L (h1 : cond1 (grid0.coords t)) (h2 : ¬cond2 (grid0.coords t)) (y : S1024x1.Idx) : ∃ pc ∈ (RA c t h1 h2 x0 x1).2.1, y ∈ pc.1.set :=
  View.cover_of_tiledL (RA c t h1 h2 x0 x1).2.1 S1024x1.size (by sl_kernel_rfl) y
theorem covA_A (h1 : cond1 (grid0.coords t)) (h2 : ¬cond2 (grid0.coords t)) (y : S1024x1024.Idx) : ∃ pc ∈ (RA c t h1 h2 x0 x1).2.2.1, y ∈ pc.1.set :=
  View.cover_of_tiledL (RA c t h1 h2 x0 x1).2.2.1 S1024x1024.size (by sl_kernel_rfl) y
theorem covB_M (h1 : ¬cond1 (grid0.coords t)) (h2 : ¬cond2 (grid0.coords t)) (y : S1024x1.Idx) : ∃ pc ∈ (RB c t h1 h2 x0 x1 s).1, y ∈ pc.1.set :=
  View.cover_of_tiledL (RB c t h1 h2 x0 x1 s).1 S1024x1.size (by sl_kernel_rfl) y
theorem covB_L (h1 : ¬cond1 (grid0.coords t)) (h2 : ¬cond2 (grid0.coords t)) (y : S1024x1.Idx) : ∃ pc ∈ (RB c t h1 h2 x0 x1 s).2.1, y ∈ pc.1.set :=
  View.cover_of_tiledL (RB c t h1 h2 x0 x1 s).2.1 S1024x1.size (by sl_kernel_rfl) y
theorem covB_A (h1 : ¬cond1 (grid0.coords t)) (h2 : ¬cond2 (grid0.coords t)) (y : S1024x1024.Idx) : ∃ pc ∈ (RB c t h1 h2 x0 x1 s).2.2.1, y ∈ pc.1.set :=
  View.cover_of_tiledL (RB c t h1 h2 x0 x1 s).2.2.1 S1024x1024.size (by sl_kernel_rfl) y
theorem covC_O (h1 : ¬cond1 (grid0.coords t)) (h2 : cond2 (grid0.coords t)) (y : S1x1024x1024.Idx) : ∃ pc ∈ (RC c t h1 h2 x0 x1 s).1, y ∈ pc.1.set :=
  View.cover_of_tiledL (RC c t h1 h2 x0 x1 s).1 S1x1024x1024.size (by sl_kernel_rfl) y
theorem covC_M (h1 : ¬cond1 (grid0.coords t)) (h2 : cond2 (grid0.coords t)) (y : S1024x1.Idx) : ∃ pc ∈ (RC c t h1 h2 x0 x1 s).2.1, y ∈ pc.1.set :=
  View.cover_of_tiledL (RC c t h1 h2 x0 x1 s).2.1 S1024x1.size (by sl_kernel_rfl) y
theorem covC_L (h1 : ¬cond1 (grid0.coords t)) (h2 : cond2 (grid0.coords t)) (y : S1024x1.Idx) : ∃ pc ∈ (RC c t h1 h2 x0 x1 s).2.2.1, y ∈ pc.1.set :=
  View.cover_of_tiledL (RC c t h1 h2 x0 x1 s).2.2.1 S1024x1.size (by sl_kernel_rfl) y
theorem covC_A (h1 : ¬cond1 (grid0.coords t)) (h2 : cond2 (grid0.coords t)) (y : S1024x1024.Idx) : ∃ pc ∈ (RC c t h1 h2 x0 x1 s).2.2.2.1, y ∈ pc.1.set :=
  View.cover_of_tiledL (RC c t h1 h2 x0 x1 s).2.2.2.1 S1024x1024.size (by sl_kernel_rfl) y

/-- What each case leaves in scratch: the canonical contents of its stores. -/
def resA (h1 : cond1 (grid0.coords t)) (h2 : ¬cond2 (grid0.coords t)) : St F :=
  (View.canon (RA c t h1 h2 x0 x1).1, View.canon (RA c t h1 h2 x0 x1).2.1, View.canon (RA c t h1 h2 x0 x1).2.2.1)
def resB (h1 : ¬cond1 (grid0.coords t)) (h2 : ¬cond2 (grid0.coords t)) : St F :=
  (View.canon (RB c t h1 h2 x0 x1 s).1, View.canon (RB c t h1 h2 x0 x1 s).2.1, View.canon (RB c t h1 h2 x0 x1 s).2.2.1)
def resC (h1 : ¬cond1 (grid0.coords t)) (h2 : cond2 (grid0.coords t)) : St F :=
  (View.canon (RC c t h1 h2 x0 x1 s).2.1, View.canon (RC c t h1 h2 x0 x1 s).2.2.1, View.canon (RC c t h1 h2 x0 x1 s).2.2.2.1)
/-- What the last case leaves in the output's staging buffer. -/
def outC (h1 : ¬cond1 (grid0.coords t)) (h2 : cond2 (grid0.coords t)) : Vec F S1x1024x1024 .f32 :=
  View.canon (RC c t h1 h2 x0 x1 s).1

end Covers

/-- A buffer after covering stores is owned at their canonical contents. -/
theorem owns_canon {s : Shape} {e : EltTy} (c : Dev nD) (arg : Memref sig .tc .vmem s e) (L : List (View.Piece (Elt F) s e))
    (hcov : ∀ y, ∃ pc ∈ L, y ∈ pc.1.set) :
    iprop(∃ f, arg.view.loc (c : Thread nD τ) ↦[arg.view.set]{fullShare} arg.view.writes (Elt F) f L)
      ⊢ (owns (c : Thread nD τ) arg fullShare (View.canon L) : sProp 𝕄) := by
  iintro ⟨%f, H⟩
  unfold owns; iexists _; isplitr
  swap; · iexact H
  ipureintro; exact View.read_writes_eq_canon _ _ _ hcov

/-! ## The state point by point -/

/-- A state nothing consults (before the first point). -/
def st0 : St F := (scM.view.read (Elt F) scM.view.junk, scL.view.read (Elt F) scL.view.junk, scA.view.read (Elt F) scA.view.junk)

/-- The state after the body at point t, from the state before it. -/
def stepAt (c : Dev nD) (t : Fin cfg0.N) (prev : St F) : St F :=
  if h1 : t.val % 8 = 0 then
    resA c t (iblk m c 0 t) (iblk m c 1 t) ((hcond1 t).mpr h1) (fun h => by have := (hcond2 t).mp h; omega)
  else if h2 : t.val % 8 = 7 then
    resC c t (iblk m c 0 t) (iblk m c 1 t) prev (fun h => h1 ((hcond1 t).mp h)) ((hcond2 t).mpr h2)
  else
    resB c t (iblk m c 0 t) (iblk m c 1 t) prev (fun h => h1 ((hcond1 t).mp h)) (fun h => h2 ((hcond2 t).mp h))

def stAt (c : Dev nD) : (n : ℕ) → n < cfg0.N → St F
  | 0, hn => stepAt m c ⟨0, hn⟩ st0
  | n + 1, hn => stepAt m c ⟨n + 1, hn⟩ (stAt c n (Nat.lt_of_succ_lt hn))

/-- The state before point t. -/
def prevAt (c : Dev nD) (t : Fin cfg0.N) : St F :=
  match t with
  | ⟨0, _⟩ => st0
  | ⟨n + 1, hn⟩ => stAt m c n (Nat.lt_of_succ_lt hn)

theorem stAt_eq (c : Dev nD) (t : Fin cfg0.N) : stAt m c t.val t.isLt = stepAt m c t (prevAt m c t) := by
  obtain ⟨n, hn⟩ := t
  cases n <;> rfl

theorem prevAt_pos (c : Dev nD) (t : Fin cfg0.N) (hz : t.val ≠ 0) :
    prevAt m c t = stAt m c (t.val - 1) (Nat.lt_of_le_of_lt (Nat.sub_le _ _) t.isLt) := by
  obtain ⟨n, hn⟩ := t
  cases n with
  | zero => exact absurd rfl hz
  | succ n => rfl

/-- What the output's staging buffer holds after the body where it is stored (elsewhere nothing consults it). -/
def outAt (c : Dev nD) (t : Fin cfg0.N) : Vec F S1x1024x1024 .f32 :=
  if h2 : t.val % 8 = 7 then
    outC c t (iblk m c 0 t) (iblk m c 1 t) (prevAt m c t) (fun h => by have := (hcond1 t).mp h; omega) ((hcond2 t).mpr h2)
  else (ms2 t).view.read (Elt F) (ms2 t).view.junk

/-! ## The invariant: the scratch buffers at the state -/

def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM fullShare (stAt m c n hn).1 ∗ owns (c : Thread nD τ) scL fullShare (stAt m c n hn).2.1
      ∗ owns (c : Thread nD τ) scA fullShare (stAt m c n hn).2.2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scM fullShare (stAt m c n hn).1 ∗ owns (c : Thread nD τ) scL fullShare (stAt m c n hn).2.1
      ∗ owns (c : Thread nD τ) scA fullShare (stAt m c n hn).2.2) := rfl

theorem PhiS_pos (c : Dev nD) (n : ℕ) (h : n ≤ cfg0.N) (hz : n ≠ 0) :
    PhiS m c n h = iprop(owns (c : Thread nD τ) scM fullShare (stAt m c (n - 1) (by omega)).1 ∗ owns (c : Thread nD τ) scL fullShare (stAt m c (n - 1) (by omega)).2.1
      ∗ owns (c : Thread nD τ) scA fullShare (stAt m c (n - 1) (by omega)).2.2) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

end Cert.KernelIdeal.Hand

end
-- ==== Proof.KIBody.lean ====
import proofs.«103166_j2052994367763_2_alg».proof.Proof.KIFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem leaves0 (c : Dev nD) (t : Fin cfg0.N) :
    (dats m 0 c).leavesExact 0 t = owns (c : Thread nD τ) (ms0 t) fullShare (iblk m c 0 t) := by
  unfold Dat.leavesExact; rw [liveAt0 t, after0]
theorem leaves1 (c : Dev nD) (t : Fin cfg0.N) :
    (dats m 0 c).leavesExact 1 t = owns (c : Thread nD τ) (ms1 t) fullShare (iblk m c 1 t) := by
  unfold Dat.leavesExact; rw [liveAt1 t, after1]

set_option maxHeartbeats 4800000 in
/-- The body at any point: the inputs' buffers hold their blocks; by the point's place in its row of key blocks one
    of the three runs applies; the invariant hands the scratch over at the state before and takes it back at the
    state after. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ, leaves0, leaves1, stAt_eq]
  have hN : t.val < 128 := lt_of_lt_of_eq t.isLt (show cfg0.N = 128 from N_0)
  by_cases h1 : t.val % 8 = 0
  · have h2 : ¬ t.val % 8 = 7 := by omega
    have hc1 : cond1 (grid0.coords t) := (hcond1 t).mpr h1
    have hc2 : ¬cond2 (grid0.coords t) := fun h => h2 ((hcond2 t).mp h)
    rw [Dat.leavesExact_idle (dats m 0 c) 2 t (idleAt2 t hc2) (noFlush2 t hc2)]
    unfold stepAt; rw [dif_pos h1]; unfold resA; dsimp only
    by_cases hz : t.val = 0
    · rw [PhiS_castSucc m c t, PhiS_zero m c _ _ hz, scopedRest_eq]
      iintro ⟨⟨HM, HL, HA⟩, Ho, ⟨%d0, H0⟩, ⟨%d1, H1⟩, ⟨%d2, H2⟩⟩
      iapply ((RA c t hc1 hc2 (iblk m c 0 t) (iblk m c 1 t)).2.2.2 _ Set.univ _)
      isplitl [H0]; · iexact H0
      isplitl [H1]; · iexact H1
      isplitl [H2]; · iexact H2
      isplitl [HM]; · iexact HM
      isplitl [HL]; · iexact HL
      isplitl [HA]; · iexact HA
      iintro ⟨H0, H1, H2, HM, HL, HA⟩
      isplitl [HM HL HA]
      · isplitl [HM]; · iapply (owns_canon c scM _ (covA_M c t _ _ hc1 hc2)); iexact HM
        isplitl [HL]; · iapply (owns_canon c scL _ (covA_L c t _ _ hc1 hc2)); iexact HL
        iapply (owns_canon c scA _ (covA_A c t _ _ hc1 hc2)); iexact HA
      isplitl [Ho]; · iexact Ho
      isplitl [H0]; · iexact H0
      isplitl [H1]; · iexact H1
      iexists _; iexact H2
    · rw [PhiS_castSucc m c t, PhiS_pos m c _ _ hz]
      iintro ⟨⟨HM, HL, HA⟩, Ho, ⟨%d0, H0⟩, ⟨%d1, H1⟩, ⟨%d2, H2⟩⟩
      iapply ((RA c t hc1 hc2 (iblk m c 0 t) (iblk m c 1 t)).2.2.2 _ Set.univ _)
      isplitl [H0]; · iexact H0
      isplitl [H1]; · iexact H1
      isplitl [H2]; · iexact H2
      isplitl [HM]; · iexists _; iexact HM
      isplitl [HL]; · iexists _; iexact HL
      isplitl [HA]; · iexists _; iexact HA
      iintro ⟨H0, H1, H2, HM, HL, HA⟩
      isplitl [HM HL HA]
      · isplitl [HM]; · iapply (owns_canon c scM _ (covA_M c t _ _ hc1 hc2)); iexact HM
        isplitl [HL]; · iapply (owns_canon c scL _ (covA_L c t _ _ hc1 hc2)); iexact HL
        iapply (owns_canon c scA _ (covA_A c t _ _ hc1 hc2)); iexact HA
      isplitl [Ho]; · iexact Ho
      isplitl [H0]; · iexact H0
      isplitl [H1]; · iexact H1
      iexists _; iexact H2
  · have hz : t.val ≠ 0 := fun h => h1 (by rw [h])
    have hc1 : ¬cond1 (grid0.coords t) := fun h => h1 ((hcond1 t).mp h)
    rw [PhiS_castSucc m c t, PhiS_pos m c _ _ hz, ← prevAt_pos m c t hz]
    by_cases h2 : t.val % 8 = 7
    · have hc2 : cond2 (grid0.coords t) := (hcond2 t).mpr h2
      rw [show (dats m 0 c).leavesExact 2 t = owns (c : Thread nD τ) (ms2 t) fullShare ((dats m 0 c).after 2 t) from by
        unfold Dat.leavesExact; rw [liveAt2 t hc2], after2]
      unfold stepAt outAt; rw [dif_neg h1, dif_pos h2, dif_pos h2]; unfold resC outC; dsimp only
      iintro ⟨⟨HM, HL, HA⟩, Ho, ⟨%d0, H0⟩, ⟨%d1, H1⟩, ⟨%d2, H2⟩⟩
      iapply ((RC c t hc1 hc2 (iblk m c 0 t) (iblk m c 1 t) (prevAt m c t)).2.2.2.2 Set.univ _)
      isplitl [H0]; · iexact H0
      isplitl [H1]; · iexact H1
      isplitl [H2]; · iexists _; iexact H2
      isplitl [HM]; · iexact HM
      isplitl [HL]; · iexact HL
      isplitl [HA]; · iexact HA
      iintro ⟨H0, H1, H2, HM, HL, HA⟩
      isplitl [HM HL HA]
      · isplitl [HM]; · iapply (owns_canon c scM _ (covC_M c t _ _ _ hc1 hc2)); iexact HM
        isplitl [HL]; · iapply (owns_canon c scL _ (covC_L c t _ _ _ hc1 hc2)); iexact HL
        iapply (owns_canon c scA _ (covC_A c t _ _ _ hc1 hc2)); iexact HA
      isplitl [Ho]; · iexact Ho
      isplitl [H0]; · iexact H0
      isplitl [H1]; · iexact H1
      iapply (owns_canon c (ms2 t) _ (covC_O c t _ _ _ hc1 hc2)); iexact H2
    · have hc2 : ¬cond2 (grid0.coords t) := fun h => h2 ((hcond2 t).mp h)
      rw [Dat.leavesExact_idle (dats m 0 c) 2 t (idleAt2 t hc2) (noFlush2 t hc2)]
      unfold stepAt; rw [dif_neg h1, dif_neg h2]; unfold resB; dsimp only
      iintro ⟨⟨HM, HL, HA⟩, Ho, ⟨%d0, H0⟩, ⟨%d1, H1⟩, ⟨%d2, H2⟩⟩
      iapply ((RB c t hc1 hc2 (iblk m c 0 t) (iblk m c 1 t) (prevAt m c t)).2.2.2 _ Set.univ _)
      isplitl [H0]; · iexact H0
      isplitl [H1]; · iexact H1
      isplitl [H2]; · iexact H2
      isplitl [HM]; · iexact HM
      isplitl [HL]; · iexact HL
      isplitl [HA]; · iexact HA
      iintro ⟨H0, H1, H2, HM, HL, HA⟩
      isplitl [HM HL HA]
      · isplitl [HM]; · iapply (owns_canon c scM _ (covB_M c t _ _ _ hc1 hc2)); iexact HM
        isplitl [HL]; · iapply (owns_canon c scL _ (covB_L c t _ _ _ hc1 hc2)); iexact HL
        iapply (owns_canon c scA _ (covB_A c t _ _ _ hc1 hc2)); iexact HA
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KILaunch.lean ====
import proofs.«103166_j2052994367763_2_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Entering and leaving the region -/

/-- What the launch hands the region is the invariant before the first point. -/
theorem hin (c : Dev nD) :
    iprop((emp : sProp 𝕄) ∗ Pipeline.scopedRest (Ix := Unit) (Name := ℕ) (U := UR sig nD τ) (Lvl := ℕ) (Val := Elt F) spec0 c) ⊢ (dats m 0 c).Φ 0 := by
  rw [show (dats m 0 c).Φ 0 = PhiS m c 0 (Nat.zero_le _) from rfl, PhiS_zero m c 0 _ rfl]
  iintro ⟨-, H⟩; iexact H

/-- After the last point the scratch buffers' contents are forgotten. -/
theorem hout (c : Dev nD) :
    (dats m 0 c).Φ (Fin.last cfg0.N) ⊢ iprop((emp : sProp 𝕄) ∗ Pipeline.scopedRest (Ix := Unit) (Name := ℕ) (U := UR sig nD τ) (Lvl := ℕ) (Val := Elt F) spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), scopedRest_eq]
  iintro ⟨HM, HL, HA⟩
  isplitr; · iempintro
  isplitl [HM]; · iexists _; iexact HM
  isplitl [HL]; · iexists _; iexact HL
  iexists _; iexact HA

/-! ## One array behind two input windows -/

theorem share0 (c : Dev nD) : (dats m 0 c).share 0 = fullShare.left := rfl
theorem share1 (c : Dev nD) : (dats m 0 c).share 1 = fullShare.right := rfl
theorem share2 (c : Dev nD) : (dats m 0 c).share 2 = fullShare := rfl

/-- The converted array, whole at the full share, is dealt in halves to the query window and the key window; the
    result array goes whole to the output window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_eq_bigSepL_of_eq [main_v0, main_v1] (by decide) (by decide), bigSep_W0]
  rw [share0, share1, share2]
  rw [(arr_whole0 0).set_eq_univ, (arr_whole0 2).set_eq_univ]
  show iprop((((c : Thread nD τ).loc main_v0) ↦{fullShare} V m c main_v0) ∗ (((c : Thread nD τ).loc main_v1) ↦{fullShare} V m c main_v1)) ⊢ _
  iintro ⟨H0, H1⟩
  ihave H0' := (pointsTo_share (PosShare.mem_left_op_right fullShare)).1 $$ H0
  icases H0' with ⟨Ha, Hb⟩
  isplitl [Ha]; · iexact Ha
  isplitl [Hb]; · iexact Hb
  iexact H1

/-! ## The run and the frame -/

set_option backward.isDefEq.respectTransparency.types false in
/-- Every weakly fair execution of the program terminates without a fault; each window's array ends at what the
    write-backs leave of it, and the argument as launched. -/
theorem run_main : θ_run defs (onTc (τ := τ) (main (F := F))) ⟨m, fun _ => 0, ρ⟩ (fun r => ∀ c : Dev nD,
      (∀ w, r.2.mem (((cfg0).spec w).arr.view.loc (c.tc : Thread nD τ)) = (dats m 0 c).arrAt w cfg0.N)
      ∧ r.2.mem ((c.tc : Thread nD τ).loc main_arg0) = m ((c.tc : Thread nD τ).loc main_arg0)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, ((h c).2 main_arg0 (Pipeline.mem_restRefs_of main_arg0 (by decide) (by decide))).trans (V_main_arg0 m c)⟩)

/-- The frame: the program runs and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.KernelIdeal.Hand

end
-- ==== Proof.KIPieces.lean ====
import proofs.«103166_j2052994367763_2_alg».proof.Proof.KIFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case's stores amount to, in the body's own arithmetic -/

theorem hz2 : (![0, 0] : Fin 2 → Nat) = fun _ => 0 := funext fun a => by fin_cases a <;> rfl
theorem hz3 : (![0, 0, 0] : Fin 3 → Nat) = fun _ => 0 := funext fun a => by fin_cases a <;> rfl

/-- One key block folded into the state: the new maximum, the rescaled denominator plus the block's exponentials,
    the rescaled numerator plus the block's weighted rows. -/
def stepFn (x0 : Vec F S1x1024x1024 .bf16) (x1 : Vec F S1x512x1024 .bf16) (s : St F) : St F :=
  (k0_pay2 (k0_pay9 x0 x1 s.1), k0_pay12 x0 x1 s.1 s.2.1, k0_pay1 (k0_pay13 x0 x1 s.1 s.2.2))

/-- The state the reset stores: maximum -∞, denominator 0, numerator 0. -/
def initSt : St F := (k0_pay4, k0_pay5, k0_pay6)

section
variable (c : Dev nD) (t : Fin cfg0.N) (x0 : Vec F S1x1024x1024 .bf16) (x1 : Vec F S1x512x1024 .bf16) (s : St F)

theorem resB_eq (h1 : ¬cond1 (grid0.coords t)) (h2 : ¬cond2 (grid0.coords t)) : resB c t x0 x1 s h1 h2 = stepFn x0 x1 s := by
  unfold resB stepFn; dsimp only [RB]; unfold runB; dsimp only
  sl_unfold_words
  have eM : ∀ X : Vec F S1024x1 .f32, scM.view.read (Elt F) ((Memref.isWhole_whole cc0_scratch0).unread X) = X := fun X => Memref.IsWhole.read_unread _ X
  have eL : ∀ X : Vec F S1024x1 .f32, scL.view.read (Elt F) ((Memref.isWhole_whole cc0_scratch1).unread X) = X := fun X => Memref.IsWhole.read_unread _ X
  have eA : ∀ X : Vec F S1024x1024 .f32, scA.view.read (Elt F) ((Memref.isWhole_whole cc0_scratch2).unread X) = X := fun X => Memref.IsWhole.read_unread _ X
  simp only [Memref.view_whole] at eM eL eA
  simp only [View.canon_unit_zero (S := S1024x1) hz2, View.canon_unit_zero (S := S1024x1024) hz2,
    View.readAt_eq_ld, Memref.IsWhole.read_unread, eM, eL, eA, View.ld_unit_zero (S := S1024x1) hz2, View.ld_unit_zero (S := S1024x1024) hz2,
    View.ld_unit_zero (S := S1x1024x1024) hz3, View.ld_unit_zero (S := S1x512x1024) hz3]

theorem resA_eq (h1 : cond1 (grid0.coords t)) (h2 : ¬cond2 (grid0.coords t)) : resA c t x0 x1 h1 h2 = stepFn x0 x1 initSt := by
  unfold resA stepFn initSt; dsimp only [RA]; unfold runA; dsimp only
  sl_unfold_words
  simp only [View.canon_cons_unit_zero (S := S1024x1) hz2, View.canon_cons_unit_zero (S := S1024x1024) hz2,
    View.readCov_unit_zero (S := S1024x1) _ hz2, View.readCov_unit_zero (S := S1024x1024) _ hz2,
    View.readAt_eq_ld, Memref.IsWhole.read_unread, View.ld_unit_zero (S := S1024x1) hz2, View.ld_unit_zero (S := S1024x1024) hz2,
    View.ld_unit_zero (S := S1x1024x1024) hz3, View.ld_unit_zero (S := S1x512x1024) hz3]

theorem resC_eq (h1 : ¬cond1 (grid0.coords t)) (h2 : cond2 (grid0.coords t)) : resC c t x0 x1 s h1 h2 = stepFn x0 x1 s := by
  unfold resC stepFn; dsimp only [RC]; unfold runC; dsimp only
  sl_unfold_words
  have eM : ∀ X : Vec F S1024x1 .f32, scM.view.read (Elt F) ((Memref.isWhole_whole cc0_scratch0).unread X) = X := fun X => Memref.IsWhole.read_unread _ X
  have eL : ∀ X : Vec F S1024x1 .f32, scL.view.read (Elt F) ((Memref.isWhole_whole cc0_scratch1).unread X) = X := fun X => Memref.IsWhole.read_unread _ X
  have eA : ∀ X : Vec F S1024x1024 .f32, scA.view.read (Elt F) ((Memref.isWhole_whole cc0_scratch2).unread X) = X := fun X => Memref.IsWhole.read_unread _ X
  simp only [Memref.view_whole] at eM eL eA
  simp only [View.canon_unit_zero (S := S1024x1) hz2, View.canon_unit_zero (S := S1024x1024) hz2,
    View.readAt_eq_ld, Memref.IsWhole.read_unread, eM, eL, eA, View.ld_unit_zero (S := S1024x1) hz2, View.ld_unit_zero (S := S1024x1024) hz2,
    View.ld_unit_zero (S := S1x1024x1024) hz3, View.ld_unit_zero (S := S1x512x1024) hz3]

/-- The output block stored where ki = 7: the new numerator divided by the new denominator. -/
theorem outC_eq (h1 : ¬cond1 (grid0.coords t)) (h2 : cond2 (grid0.coords t)) :
    outC c t x0 x1 s h1 h2 = k0_pay3 (stepFn x0 x1 s).2.2 (stepFn x0 x1 s).2.1 := by
  unfold outC stepFn; dsimp only [RC]; unfold runC; dsimp only
  sl_unfold_words
  have eM : ∀ X : Vec F S1024x1 .f32, scM.view.read (Elt F) ((Memref.isWhole_whole cc0_scratch0).unread X) = X := fun X => Memref.IsWhole.read_unread _ X
  have eL : ∀ X : Vec F S1024x1 .f32, scL.view.read (Elt F) ((Memref.isWhole_whole cc0_scratch1).unread X) = X := fun X => Memref.IsWhole.read_unread _ X
  have eA : ∀ X : Vec F S1024x1024 .f32, scA.view.read (Elt F) ((Memref.isWhole_whole cc0_scratch2).unread X) = X := fun X => Memref.IsWhole.read_unread _ X
  simp only [Memref.view_whole] at eM eL eA
  simp only [View.canon_unit_zero (S := S1x1024x1024) hz3,
    View.readCov_unit_zero (S := S1024x1) _ hz2, View.readCov_unit_zero (S := S1024x1024) _ hz2,
    View.readAt_eq_ld, Memref.IsWhole.read_unread, eM, eL, eA, View.ld_unit_zero (S := S1024x1) hz2, View.ld_unit_zero (S := S1024x1024) hz2,
    View.ld_unit_zero (S := S1x1024x1024) hz3, View.ld_unit_zero (S := S1x512x1024) hz3]
end

/-- The state after point t is the block at t folded into the state before, which is the reset state where ki = 0. -/
theorem stepAt_eq (c : Dev nD) (t : Fin cfg0.N) (prev : St F) :
    stepAt m c t prev = stepFn (iblk m c 0 t) (iblk m c 1 t) (if t.val % 8 = 0 then initSt else prev) := by
  unfold stepAt
  by_cases h1 : t.val % 8 = 0
  · rw [dif_pos h1, if_pos h1, resA_eq]
  · rw [dif_neg h1, if_neg h1]
    by_cases h2 : t.val % 8 = 7
    · rw [dif_pos h2, resC_eq]
    · rw [dif_neg h2, resB_eq]

theorem outAt_eq (c : Dev nD) (t : Fin cfg0.N) (h2 : t.val % 8 = 7) :
    outAt m c t = k0_pay3 (stAt m c t.val t.isLt).2.2 (stAt m c t.val t.isLt).2.1 := by
  unfold outAt; rw [dif_pos h2, outC_eq, stAt_eq, stepAt_eq, if_neg (by omega)]

end Cert.KernelIdeal.Hand

end
-- ==== Proof.LibLayout.lean ====
/-
  Layout operations of small shapes read at an index, in the forms a row-wise normalisation needs: a vector made a
  column and a column spread over the columns of a matrix (the two halves of a `keepdims` reduction's broadcast), a
  row vector made a one-row matrix and spread over the rows, and a scalar spread over any shape. Each says which
  operand entry the result reads at `(p, c)`.
-/
import Idealize.ShloMosaic.Lib.ValueIdx
import Idealize.ShloMosaic.Lib.ValueLayout
import Idealize.ShloMosaic.Lib.Pipeline.Value

namespace Cert.LibLayout

open Idealize.ShloMosaic Idealize.ShloMosaic.ValueIdx

variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A scalar spread over any shape (`broadcast_in_dim` with no axis) reads the scalar everywhere. -/
theorem broadcastInDim_scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun ax => ax.elim0

/-- A vector `[b]` made the one row of `[1, b]` (`broadcast_in_dim` on axis 1) reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row matrix `[1, b]` spread over `a` rows (`broadcast_in_dim` on axes 0, 1) reads, at `(p, c)`, the row at `c`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` made a column `[a, 1]` (`broadcast_in_dim` on axis 0) reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column `[a, 1]` spread over `b` columns (`broadcast_in_dim` on axes 0, 1) reads, at `(p, c)`, the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

end Cert.LibLayout
-- ==== Proof.LibRowReduce.lean ====
/-
  Reductions along the rows of a matrix read at a row, on the extended reals (generic in the extents, imports only the
  library): the reduced index with the lane coordinate put back (`lift_row`, which also serves the host's reduce over
  the same axis), a kernel's lane maximum and lane sum over the last axis of an [a, b] array as the fold of max from the
  accumulator's value, or the sum, over the row's entries; and joining the initial value once more onto a maximum
  folded from it changes nothing.
-/
import Idealize.ShloMosaic.PureOps.Ideal.Laws
import Idealize.ShloMosaic.PureOps.Reduce
import Idealize.ShloMosaic.Lib.ValueIdx

noncomputable section

namespace Cert.LibRowReduce

open Idealize.ShloMosaic Idealize.ShloMosaic.ValueIdx

variable {a b : ℕ}

/-- The reduced index p with the lane coordinate l put back is (p, l). -/
theorem lift_row (h : (⟨2, ![a, b]⟩ : Shape).Reduces [1] (⟨1, ![a]⟩ : Shape)) (p : Fin a)
    (l : Fin ((⟨2, ![a, b]⟩ : Shape).size 1)) : h.lift (ix1 p) l = ix2 p (⟨l.val, l.isLt⟩ : Fin b) := by
  funext c; apply Fin.ext
  fin_cases c <;> rfl

/-- A kernel's lane maximum over the last axis, at row p: the fold of max from the accumulator's value over the row. -/
theorem laneMax_apply (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun l => src (ix2 p l)) := by
  refine (Ideal.multiReduction_maximumf_single src acc h hφ hacc (ix1 p)).trans ?_
  exact congrArg (fun f => Finset.fold max (Ideal.ofBits .f32 acc) f (Finset.univ : Finset (Fin b)))
    (funext fun l => congrArg src (lift_row h p l))

/-- A kernel's lane sum over the last axis, at row p: the sum over the row. -/
theorem laneSum_apply (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ l : Fin b, src (ix2 p l) := by
  refine (Ideal.multiReduction_add_single src acc h hφ hacc (ix1 p)).trans ?_
  exact Finset.sum_congr rfl fun l _ => congrArg src (lift_row h p l)

/-- A maximum folded from an initial value is above it, so joining the initial value once more changes nothing. -/
theorem max_fold_self {ι : Type*} (s : Finset ι) (c : EReal) (f : ι → EReal) : max c (s.fold max c f) = s.fold max c f :=
  max_eq_right (Finset.le_fold_max c |>.mpr (Or.inl le_rfl))

end Cert.LibRowReduce

end
-- ==== Proof.LibPlainDot.lean ====
/-
  The plain matrix product `[a, K] · [K, b]` (left operand contracted on its last axis, right operand on its first, no
  batch axes) read at an entry on the extended reals: `(x · y)[p, c] = Σₖ x[p, k] · y[k, c]`, the sum over `Fin K`.
  Stated once for any dimension record of that form, then for the two operations that compute it: a kernel's matrix
  unit product into a zero accumulator, and the host's `dot_general`.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product: contract the left operand's axis 1 with the right operand's axis 0, keep
    the left operand's axis 0 and the right operand's axis 1, no batch axes. -/
structure IsPlain {a K b : ℕ} (D : DotDims ⟨2, ![a, K]⟩ ⟨2, ![K, b]⟩ ⟨2, ![a, b]⟩) : Prop where
  lc : D.lhsContracting = [1]
  rc : D.rhsContracting = [0]
  ln : D.lhsNonContracting = [0]
  rn : D.rhsNonContracting = [1]
  lb : D.lhsBatch = []
  rb : D.rhsBatch = []

/-- The record of a plain product, its lists spelt out. -/
abbrev mk {a K b : ℕ} (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ := ⟨[1], [0], [0], [1], [], [], wf⟩

section
variable {a K b : ℕ} (wf : DotDims.WF ⟨2, ![a, K]⟩ ⟨2, ![K, b]⟩ ⟨2, ![a, b]⟩ [1] [0] [0] [1] [] [])

/-- The left operand's row is the entry's row. -/
theorem lhs_row (i : (⟨2, ![a, b]⟩ : Shape).Idx) (q : (mk wf).contr.Idx) : ((mk wf).lhsIdx i q 0).val = (i 0).val := by
  unfold DotDims.lhsIdx
  rw [dif_neg (show ¬(0 : Fin (Shape.rank ⟨2, ![a, K]⟩)) ∈ (mk wf).lhsBatch from fun h => nomatch h),
    dif_pos (show (0 : Fin (Shape.rank ⟨2, ![a, K]⟩)) ∈ (mk wf).lhsNonContracting from List.Mem.head _)]
  rfl

/-- The left operand's column is the contraction coordinate. -/
theorem lhs_col (i : (⟨2, ![a, b]⟩ : Shape).Idx) (q : (mk wf).contr.Idx) :
    ((mk wf).lhsIdx i q 1).val = (q ⟨0, Nat.one_pos⟩).val :=
  (mk wf).lhsIdx_val_of_single rfl i q

/-- The right operand's row is the contraction coordinate. -/
theorem rhs_row (i : (⟨2, ![a, b]⟩ : Shape).Idx) (q : (mk wf).contr.Idx) :
    ((mk wf).rhsIdx i q 0).val = (q ⟨0, Nat.one_pos⟩).val :=
  (mk wf).rhsIdx_val_of_single rfl i q

/-- The right operand's column is the entry's column. -/
theorem rhs_col (i : (⟨2, ![a, b]⟩ : Shape).Idx) (q : (mk wf).contr.Idx) : ((mk wf).rhsIdx i q 1).val = (i 1).val := by
  unfold DotDims.rhsIdx
  rw [dif_neg (show ¬(1 : Fin (Shape.rank ⟨2, ![K, b]⟩)) ∈ (mk wf).rhsBatch from fun h => nomatch h),
    dif_pos (show (1 : Fin (Shape.rank ⟨2, ![K, b]⟩)) ∈ (mk wf).rhsNonContracting from List.Mem.head _)]
  rfl

/-- The contraction at `(p, c)`, for the spelt-out record. -/
theorem sum_mk (x : (⟨2, ![a, K]⟩ : Shape).Idx → EReal) (y : (⟨2, ![K, b]⟩ : Shape).Idx → EReal) (p : Fin a) (c : Fin b) :
    ∑ k : (mk wf).contr.Idx, x ((mk wf).lhsIdx (ix2 p c) k) * y ((mk wf).rhsIdx (ix2 p c) k)
      = ∑ k : Fin K, x (ix2 p k) * y (ix2 k c) := by
  rw [← Equiv.sum_comp (contrEquiv1 (mk wf) K rfl rfl).symm]
  refine Finset.sum_congr rfl fun k _ => ?_
  have hk := contrEquiv1_symm_val (mk wf) K rfl rfl k
  have el : (mk wf).lhsIdx (ix2 p c) ((contrEquiv1 (mk wf) K rfl rfl).symm k) = ix2 p k := funext fun ax => Fin.ext (by
    match ax with
    | ⟨0, _⟩ => exact lhs_row wf _ _
    | ⟨1, _⟩ => exact (lhs_col wf _ _).trans hk)
  have er : (mk wf).rhsIdx (ix2 p c) ((contrEquiv1 (mk wf) K rfl rfl).symm k) = ix2 k c := funext fun ax => Fin.ext (by
    match ax with
    | ⟨0, _⟩ => exact (rhs_row wf _ _).trans hk
    | ⟨1, _⟩ => exact rhs_col wf _ _)
  rw [el, er]

end

/-- The contraction of a plain product at the entry `(p, c)` is the sum over the shared axis's coordinate. -/
theorem sum_plain {a K b : ℕ} (D : DotDims ⟨2, ![a, K]⟩ ⟨2, ![K, b]⟩ ⟨2, ![a, b]⟩) (h : IsPlain D)
    (x : (⟨2, ![a, K]⟩ : Shape).Idx → EReal) (y : (⟨2, ![K, b]⟩ : Shape).Idx → EReal) (p : Fin a) (c : Fin b) :
    ∑ k : D.contr.Idx, x (D.lhsIdx (ix2 p c) k) * y (D.rhsIdx (ix2 p c) k) = ∑ k : Fin K, x (ix2 p k) * y (ix2 k c) := by
  obtain ⟨lc, rc, ln, rn, lb, rb, wf⟩ := D
  obtain ⟨h1, h2, h3, h4, h5, h6⟩ := h
  dsimp only at h1 h2 h3 h4 h5 h6
  subst h1 h2 h3 h4 h5 h6
  exact sum_mk wf x y p c

/-- A kernel's matrix product into the zero accumulator, at an entry. -/
theorem matmul_zero_apply {a K b : ℕ} {φ₁ φ₂ : FTy} (D : DotDims ⟨2, ![a, K]⟩ ⟨2, ![K, b]⟩ ⟨2, ![a, b]⟩) (h : IsPlain D)
    (prec : Option ContractPrecision) (x : FVec Ideal ⟨2, ![a, K]⟩ φ₁) (y : FVec Ideal ⟨2, ![K, b]⟩ φ₂) (p : Fin a) (c : Fin b) :
    FloatOps.matmul D prec x y (constant ⟨2, ![a, b]⟩ .f32 0x00000000#32) (ix2 p c) = ∑ k : Fin K, x (ix2 p k) * y (ix2 k c) :=
  (Ideal.matmul_constant_zero_apply D prec x y (ix2 p c)).trans (sum_plain D h x y p c)

/-- The host's `dot_general`, at an entry, whatever its schedule key. -/
theorem dotGeneral_apply {a K b : ℕ} {φ₁ φ₂ : FTy} (D : DotDims ⟨2, ![a, K]⟩ ⟨2, ![K, b]⟩ ⟨2, ![a, b]⟩) (h : IsPlain D)
    (prec : Option ContractPrecision) (sched : HostSchedule) (x : FVec Ideal ⟨2, ![a, K]⟩ φ₁) (y : FVec Ideal ⟨2, ![K, b]⟩ φ₂)
    (p : Fin a) (c : Fin b) :
    FloatOps.dotGeneral D prec sched x y (ix2 p c) = ∑ k : Fin K, x (ix2 p k) * y (ix2 k c) :=
  (Ideal.dotGeneral_apply D prec sched x y (ix2 p c)).trans (sum_plain D h x y p c)

end Cert.LibPlainDot

end
-- ==== Proof.LibOnlineSoftmax.lean ====
/-
  The online-softmax recursion computes the softmax-weighted sum.

  A row of N = n * b real scores σ 0, …, σ (N - 1) with real values β 0, …, β (N - 1) is read in n blocks
  of length b.  The recursion keeps a running maximum M (from -∞), a running denominator L and a running
  numerator A (both from 0); at each block the new maximum M' is the old one joined with the block's
  maximum, and L and A are rescaled by exp (M - M') before the block's terms exp (s - M') and
  exp (s - M') * β are added.  This file proves, for every n > 0 and b > 0 (generic in both extents),
  that after n blocks the quotient A / L equals the ordinary softmax-weighted sum

      ∑ t, (exp (σ t - mx) / ∑ t', exp (σ t' - mx)) * β t,       mx = the maximum of all N scores,

  all operations being the exact ones on the extended reals (exp (-∞) = 0, so the first rescale factor
  is 0 and multiplies the initial 0).  The argument: after j ≥ 1 blocks the state is
  (μ, ∑_{t < j b} exp (σ t - μ), ∑_{t < j b} exp (σ t - μ) * β t) for a real μ (exp (μ - μ') * exp (σ - μ)
  = exp (σ - μ')), and a softmax-weighted sum does not depend on the real shift μ that is subtracted.
-/
import Idealize.ShloMosaic.PureOps.Ideal

noncomputable section

namespace Cert.LibOnlineSoftmax

open Idealize.ShloMosaic

variable {b : ℕ}

/-- The new running maximum: the old one joined with the block's maximum (folded from -∞). -/
def stepM (M : EReal) (s : Fin b → EReal) : EReal :=
  max M ((Finset.univ : Finset (Fin b)).fold max ⊥ s)

/-- The new running denominator: the old one rescaled, plus the block's exponentials. -/
def stepL (M L : EReal) (s : Fin b → EReal) : EReal :=
  Ideal.exp (M - stepM M s) * L + ∑ k : Fin b, Ideal.exp (s k - stepM M s)

/-- The new running numerator: the old one rescaled, plus the block's weighted values. -/
def stepA (M A : EReal) (s β : Fin b → EReal) : EReal :=
  Ideal.exp (M - stepM M s) * A + ∑ k : Fin b, Ideal.exp (s k - stepM M s) * β k

/-- The state (M, L, A) after j blocks; block j has scores s j and values β j. -/
def state (s β : ℕ → Fin b → EReal) : ℕ → EReal × EReal × EReal
  | 0 => (⊥, 0, 0)
  | j + 1 => (stepM (state s β j).1 (s j), stepL (state s β j).1 (state s β j).2.1 (s j),
      stepA (state s β j).1 (state s β j).2.2 (s j) (β j))

theorem state_zero (s β : ℕ → Fin b → EReal) : state s β 0 = (⊥, 0, 0) := rfl

theorem state_succ (s β : ℕ → Fin b → EReal) (j : ℕ) :
    state s β (j + 1) = (stepM (state s β j).1 (s j), stepL (state s β j).1 (state s β j).2.1 (s j),
      stepA (state s β j).1 (state s β j).2.2 (s j) (β j)) := rfl

/-! ### Coercions -/

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of two coerced reals is the coerced maximum. -/
theorem max_coe (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

/-- exp of a difference of two reals. -/
theorem exp_coe_sub_coe (x y : ℝ) :
    Ideal.exp ((x : EReal) - (y : EReal)) = ((Real.exp (x - y) : ℝ) : EReal) := by
  rw [← EReal.coe_sub, Ideal.exp_coe]

/-- Division of two reals by a nonzero denominator is the real division. -/
theorem div_coe_coe (x y : ℝ) (hy : y ≠ 0) :
    Ideal.div (x : EReal) (y : EReal) = ((x / y : ℝ) : EReal) := by
  rw [Ideal.div_coe hy, ← EReal.coe_mul, mul_one_div]

/-! ### The running maximum stays real -/

/-- A real joined with the maximum (from -∞) of finitely many reals is a real. -/
theorem max_fold_coe {ι : Type*} (s : Finset ι) (f : ι → ℝ) :
    ∀ r0 : ℝ, ∃ r : ℝ, max (r0 : EReal) (s.fold max ⊥ (fun k => (f k : EReal))) = (r : EReal) := by
  classical
  induction s using Finset.induction_on with
  | empty => intro r0; exact ⟨r0, by rw [Finset.fold_empty, max_eq_left bot_le]⟩
  | insert a s ha ih =>
    intro r0
    obtain ⟨r, hr⟩ := ih (max r0 (f a))
    exact ⟨r, by rw [Finset.fold_insert ha, ← max_assoc, max_coe, hr]⟩

theorem stepM_coe (μ : ℝ) (f : Fin b → ℝ) :
    ∃ r : ℝ, stepM (μ : EReal) (fun k => (f k : EReal)) = (r : EReal) :=
  max_fold_coe Finset.univ f μ

theorem stepM_bot (hb : 0 < b) (f : Fin b → ℝ) :
    ∃ r : ℝ, stepM ⊥ (fun k => (f k : EReal)) = (r : EReal) := by
  classical
  obtain ⟨r, hr⟩ := max_fold_coe ((Finset.univ : Finset (Fin b)).erase ⟨0, hb⟩) f (f ⟨0, hb⟩)
  refine ⟨r, ?_⟩
  rw [stepM, max_eq_right bot_le, ← Finset.insert_erase (Finset.mem_univ (⟨0, hb⟩ : Fin b)),
    Finset.fold_insert (Finset.notMem_erase _ _), hr]

/-! ### One block, on reals -/

/-- The block's exponentials, all real. -/
theorem block_exp (μ' : ℝ) (f : Fin b → ℝ) :
    ∑ k : Fin b, Ideal.exp ((f k : EReal) - (μ' : EReal))
      = ((∑ k : Fin b, Real.exp (f k - μ') : ℝ) : EReal) := by
  rw [coe_sum]
  exact Finset.sum_congr rfl (fun k _ => exp_coe_sub_coe _ _)

/-- The block's weighted values, all real. -/
theorem block_exp_mul (μ' : ℝ) (f g : Fin b → ℝ) :
    ∑ k : Fin b, Ideal.exp ((f k : EReal) - (μ' : EReal)) * (g k : EReal)
      = ((∑ k : Fin b, Real.exp (f k - μ') * g k : ℝ) : EReal) := by
  rw [coe_sum]
  exact Finset.sum_congr rfl (fun k _ => by rw [exp_coe_sub_coe, EReal.coe_mul])

/-- A denominator step from a real state. -/
theorem stepL_coe (μ μ' L : ℝ) (f : Fin b → ℝ)
    (h : stepM (μ : EReal) (fun k => (f k : EReal)) = (μ' : EReal)) :
    stepL (μ : EReal) (L : EReal) (fun k => (f k : EReal))
      = ((Real.exp (μ - μ') * L + ∑ k : Fin b, Real.exp (f k - μ') : ℝ) : EReal) := by
  rw [stepL, h, exp_coe_sub_coe, block_exp, ← EReal.coe_mul, ← EReal.coe_add]

/-- A numerator step from a real state. -/
theorem stepA_coe (μ μ' A : ℝ) (f g : Fin b → ℝ)
    (h : stepM (μ : EReal) (fun k => (f k : EReal)) = (μ' : EReal)) :
    stepA (μ : EReal) (A : EReal) (fun k => (f k : EReal)) (fun k => (g k : EReal))
      = ((Real.exp (μ - μ') * A + ∑ k : Fin b, Real.exp (f k - μ') * g k : ℝ) : EReal) := by
  rw [stepA, h, exp_coe_sub_coe, block_exp_mul, ← EReal.coe_mul, ← EReal.coe_add]

/-- The first denominator step: the rescale factor is exp (-∞) = 0. -/
theorem stepL_bot (μ' : ℝ) (f : Fin b → ℝ)
    (h : stepM ⊥ (fun k => (f k : EReal)) = (μ' : EReal)) :
    stepL ⊥ 0 (fun k => (f k : EReal)) = ((∑ k : Fin b, Real.exp (f k - μ') : ℝ) : EReal) := by
  rw [stepL, h, EReal.bot_sub, Ideal.exp_bot, zero_mul, zero_add, block_exp]

/-- The first numerator step. -/
theorem stepA_bot (μ' : ℝ) (f g : Fin b → ℝ)
    (h : stepM ⊥ (fun k => (f k : EReal)) = (μ' : EReal)) :
    stepA ⊥ 0 (fun k => (f k : EReal)) (fun k => (g k : EReal))
      = ((∑ k : Fin b, Real.exp (f k - μ') * g k : ℝ) : EReal) := by
  rw [stepA, h, EReal.bot_sub, Ideal.exp_bot, zero_mul, zero_add, block_exp_mul]

/-! ### The rescaled prefix sums -/

/-- Rescaling the first m terms from the shift μ to the shift μ' and adding the next b terms gives the
    first m + b terms at the shift μ'. -/
theorem rescale_add (σ w : ℕ → ℝ) (μ μ' : ℝ) (m b : ℕ) :
    Real.exp (μ - μ') * (∑ t ∈ Finset.range m, Real.exp (σ t - μ) * w t)
        + ∑ k : Fin b, Real.exp (σ (m + k.val) - μ') * w (m + k.val)
      = ∑ t ∈ Finset.range (m + b), Real.exp (σ t - μ') * w t := by
  rw [Finset.sum_range_add, Fin.sum_univ_eq_sum_range (fun k => Real.exp (σ (m + k) - μ') * w (m + k)) b,
    Finset.mul_sum]
  congr 1
  refine Finset.sum_congr rfl (fun t _ => ?_)
  rw [← mul_assoc, ← Real.exp_add]
  congr 2
  ring

/-- The same for the unweighted sums. -/
theorem rescale_add_one (σ : ℕ → ℝ) (μ μ' : ℝ) (m b : ℕ) :
    Real.exp (μ - μ') * (∑ t ∈ Finset.range m, Real.exp (σ t - μ))
        + ∑ k : Fin b, Real.exp (σ (m + k.val) - μ')
      = ∑ t ∈ Finset.range (m + b), Real.exp (σ t - μ') := by
  have h := rescale_add σ (fun _ => 1) μ μ' m b
  simp only [mul_one] at h
  exact h

/-- The first block's sum is the sum over the first b indices. -/
theorem first_block (g : ℕ → ℝ) (b : ℕ) :
    ∑ k : Fin b, g (0 * b + k.val) = ∑ t ∈ Finset.range ((0 + 1) * b), g t := by
  rw [Fin.sum_univ_eq_sum_range (fun k => g (0 * b + k)) b]
  simp only [Nat.zero_mul, Nat.zero_add, Nat.one_mul]

/-! ### The state after j ≥ 1 blocks -/

/-- After j + 1 blocks the state is (μ, ∑_{t < (j+1) b} exp (σ t - μ), ∑_{t < (j+1) b} exp (σ t - μ) * β t)
    for a real μ. -/
theorem state_real (hb : 0 < b) (σ β : ℕ → ℝ) (j : ℕ) :
    ∃ μ : ℝ,
      state (fun j (k : Fin b) => ((σ (j * b + k.val) : ℝ) : EReal))
          (fun j (k : Fin b) => ((β (j * b + k.val) : ℝ) : EReal)) (j + 1)
        = ((μ : EReal), ((∑ t ∈ Finset.range ((j + 1) * b), Real.exp (σ t - μ) : ℝ) : EReal),
            ((∑ t ∈ Finset.range ((j + 1) * b), Real.exp (σ t - μ) * β t : ℝ) : EReal)) := by
  induction j with
  | zero =>
    obtain ⟨μ', h⟩ := stepM_bot hb (fun k : Fin b => σ (0 * b + k.val))
    refine ⟨μ', ?_⟩
    rw [state_succ, state_zero]
    dsimp only
    rw [h, stepL_bot μ' _ h, stepA_bot μ' _ _ h,
      first_block (fun t => Real.exp (σ t - μ')) b,
      first_block (fun t => Real.exp (σ t - μ') * β t) b]
  | succ j ih =>
    obtain ⟨μ, ih⟩ := ih
    obtain ⟨μ', h⟩ := stepM_coe μ (fun k : Fin b => σ ((j + 1) * b + k.val))
    refine ⟨μ', ?_⟩
    rw [state_succ, ih]
    dsimp only
    rw [h, stepL_coe μ μ' _ _ h, stepA_coe μ μ' _ _ _ h, rescale_add_one, rescale_add,
      ← Nat.succ_mul]

/-! ### The softmax-weighted sum does not depend on the shift -/

/-- Subtracting μ or m from every score gives the same softmax-weighted sum: the common factor
    exp (m - μ) cancels in the quotient. -/
theorem softmax_shift (s : Finset ℕ) (σ β : ℕ → ℝ) (μ m : ℝ) :
    (∑ t ∈ s, Real.exp (σ t - μ) * β t) / (∑ t ∈ s, Real.exp (σ t - μ))
      = ∑ t ∈ s, Real.exp (σ t - m) / (∑ t' ∈ s, Real.exp (σ t' - m)) * β t := by
  have hc : ∀ t, Real.exp (σ t - μ) = Real.exp (m - μ) * Real.exp (σ t - m) := by
    intro t
    rw [← Real.exp_add]
    congr 1
    ring
  have h1 : ∑ t ∈ s, Real.exp (σ t - μ) * β t
      = Real.exp (m - μ) * ∑ t ∈ s, Real.exp (σ t - m) * β t := by
    rw [Finset.mul_sum]
    exact Finset.sum_congr rfl (fun t _ => by rw [hc t, mul_assoc])
  have h2 : ∑ t ∈ s, Real.exp (σ t - μ) = Real.exp (m - μ) * ∑ t ∈ s, Real.exp (σ t - m) := by
    rw [Finset.mul_sum]
    exact Finset.sum_congr rfl (fun t _ => hc t)
  rw [h1, h2, mul_div_mul_left _ _ (Real.exp_pos _).ne', Finset.sum_div]
  exact Finset.sum_congr rfl (fun t _ => by ring)

/-- A sum of exponentials over a nonempty range is not zero. -/
theorem sum_exp_ne_zero (σ : ℕ → ℝ) (m : ℝ) (N : ℕ) (hN : 0 < N) :
    (∑ t ∈ Finset.range N, Real.exp (σ t - m)) ≠ 0 :=
  (Finset.sum_pos (fun t _ => Real.exp_pos _) (Finset.nonempty_range_iff.2 hN.ne')).ne'

/-! ### The theorem -/

/-- After n > 0 blocks of length b > 0 the quotient A / L of the online recursion is the
    softmax-weighted sum of the n * b values (flat index t = j * b + k), the maximum being folded
    from -∞ and joined with -∞ once more and the denominator summed from 0. -/
theorem online_eq (n b : ℕ) (hn : 0 < n) (hb : 0 < b) (σ β : ℕ → ℝ) :
    Ideal.div
        (state (fun j (k : Fin b) => ((σ (j * b + k.val) : ℝ) : EReal))
          (fun j (k : Fin b) => ((β (j * b + k.val) : ℝ) : EReal)) n).2.2
        (state (fun j (k : Fin b) => ((σ (j * b + k.val) : ℝ) : EReal))
          (fun j (k : Fin b) => ((β (j * b + k.val) : ℝ) : EReal)) n).2.1
      = ∑ t : Fin (n * b),
          Ideal.div
            (Ideal.exp (((σ t.val : ℝ) : EReal)
              - max ⊥ ((Finset.univ : Finset (Fin (n * b))).fold max ⊥
                  (fun t => ((σ t.val : ℝ) : EReal)))))
            (0 + ∑ t' : Fin (n * b), Ideal.exp (((σ t'.val : ℝ) : EReal)
              - max ⊥ ((Finset.univ : Finset (Fin (n * b))).fold max ⊥
                  (fun t => ((σ t.val : ℝ) : EReal)))))
            * ((β t.val : ℝ) : EReal) := by
  obtain ⟨j, rfl⟩ : ∃ j, n = j + 1 := ⟨n - 1, by omega⟩
  obtain ⟨μ, hμ⟩ := state_real hb σ β j
  have hN : 0 < (j + 1) * b := Nat.mul_pos (Nat.succ_pos j) hb
  obtain ⟨m, hm⟩ := stepM_bot hN (fun t : Fin ((j + 1) * b) => σ t.val)
  rw [stepM] at hm
  rw [hμ, hm]
  dsimp only
  rw [div_coe_coe _ _ (sum_exp_ne_zero σ μ _ hN), softmax_shift _ σ β μ m, zero_add,
    block_exp m (fun t : Fin ((j + 1) * b) => σ t.val),
    Fin.sum_univ_eq_sum_range (fun t => Real.exp (σ t - m)) ((j + 1) * b), coe_sum,
    ← Fin.sum_univ_eq_sum_range
      (fun t => ((Real.exp (σ t - m) / (∑ t' ∈ Finset.range ((j + 1) * b), Real.exp (σ t' - m))
        * β t : ℝ) : EReal)) ((j + 1) * b)]
  refine Finset.sum_congr rfl (fun t _ => ?_)
  rw [exp_coe_sub_coe, div_coe_coe _ _ (sum_exp_ne_zero σ m _ hN), EReal.coe_mul]

/-- The same for extended-real scores and values that are all finite. -/
theorem online_eq_finite (n b : ℕ) (hn : 0 < n) (hb : 0 < b) (S B : ℕ → EReal)
    (hS : ∀ t, S t ≠ ⊤ ∧ S t ≠ ⊥) (hB : ∀ t, B t ≠ ⊤ ∧ B t ≠ ⊥) :
    Ideal.div
        (state (fun j (k : Fin b) => S (j * b + k.val)) (fun j (k : Fin b) => B (j * b + k.val)) n).2.2
        (state (fun j (k : Fin b) => S (j * b + k.val)) (fun j (k : Fin b) => B (j * b + k.val)) n).2.1
      = ∑ t : Fin (n * b),
          Ideal.div
            (Ideal.exp (S t.val
              - max ⊥ ((Finset.univ : Finset (Fin (n * b))).fold max ⊥ (fun t => S t.val))))
            (0 + ∑ t' : Fin (n * b), Ideal.exp (S t'.val
              - max ⊥ ((Finset.univ : Finset (Fin (n * b))).fold max ⊥ (fun t => S t.val))))
            * B t.val := by
  obtain ⟨σ, rfl⟩ : ∃ σ : ℕ → ℝ, S = fun t => ((σ t : ℝ) : EReal) :=
    ⟨fun t => (S t).toReal, funext fun t => (EReal.coe_toReal (hS t).1 (hS t).2).symm⟩
  obtain ⟨β, rfl⟩ : ∃ β : ℕ → ℝ, B = fun t => ((β t : ℝ) : EReal) :=
    ⟨fun t => (B t).toReal, funext fun t => (EReal.coe_toReal (hB t).1 (hB t).2).symm⟩
  exact online_eq n b hn hb σ β

end Cert.LibOnlineSoftmax

end
-- ==== Proof.KIPay.lean ====
/-
  The kernel body's arithmetic read at an index, on the extended reals (every operation exact).

  One block step of the kernel reads a block of 1024 query rows x0 and a block of 512 key rows x1 and updates, per
  query row p, a running maximum M, a running denominator L and, per column d, a running numerator A.  The score of
  query row p against key row k of the block is the inner product of the two rows, blkScore x0 x1 p k = Σₑ x0[p, e] · x1[k, e]
  (the first product's right operand is the transpose of the key block).  Each stored value, read at one entry, is the
  corresponding step of the online-softmax recursion applied to that row of scores:
  the new maximum is max M (maxₖ s k), the new denominator exp (M - M') · L + Σₖ exp (s k - M'), the new numerator
  exp (M - M') · A + Σₖ exp (s k - M') · x1[k, d], and the final quotient is A / L.  The three initial values are -∞, 0, 0.
-/
import proofs.«103166_j2052994367763_2_alg».proof.Proof.Gen.KernelIdeal.Skeleton
import proofs.«103166_j2052994367763_2_alg».proof.Proof.LibLayout
import proofs.«103166_j2052994367763_2_alg».proof.Proof.LibRowReduce
import proofs.«103166_j2052994367763_2_alg».proof.Proof.LibPlainDot
import proofs.«103166_j2052994367763_2_alg».proof.Proof.LibOnlineSoftmax
import Idealize.ShloMosaic.Lib.ValueIdx
import Idealize.ShloMosaic.Lib.ValueLayout
import Idealize.ShloMosaic.Lib.Pipeline.Value

noncomputable section

namespace Cert.KernelIdeal.PayValue

open Cert.KernelIdeal Cert.KernelIdeal.Gen Idealize.ShloMosaic Idealize.ShloMosaic.ValueIdx Cert.LibOnlineSoftmax

variable [Cert.KernelIdeal.Facts]

/-- The scores of query row p against the 512 key rows of the block: the inner products of the rows. -/
def blkScore (x0 : Vec Ideal S1x1024x1024 .bf16) (x1 : Vec Ideal S1x512x1024 .bf16) (p : Fin 1024) : Fin 512 → EReal :=
  fun k => ∑ e : Fin 1024, x0 (ix3 (0 : Fin 1) p e) * x1 (ix3 (0 : Fin 1) k e)

/-! ## The initial values -/

/-- The word 0xFF800000 is -∞. -/
theorem ofBits_neg_inf : Ideal.ofBits .f32 0xFF800000#32 = (⊥ : EReal) := by
  simp [Ideal.ofBits, Ideal.ieee]

/-- The running maximum starts at -∞. -/
theorem pay4_apply (p : Fin 1024) : k0_pay4 (F := Ideal) (ix2 p (0 : Fin 1)) = (⊥ : EReal) := by
  unfold k0_pay4
  rw [shapeCast_self]
  exact ofBits_neg_inf

/-- The running denominator starts at 0. -/
theorem pay5_apply (p : Fin 1024) : k0_pay5 (F := Ideal) (ix2 p (0 : Fin 1)) = (0 : EReal) := by
  unfold k0_pay5
  rw [shapeCast_self]
  exact Ideal.ofBits_zero_f32

/-- The running numerator starts at 0. -/
theorem pay6_apply (p d : Fin 1024) : k0_pay6 (F := Ideal) (ix2 p d) = (0 : EReal) := by
  unfold k0_pay6
  rw [shapeCast_self]
  exact Ideal.ofBits_zero_f32

/-! ## The final quotient -/

/-- The stored output at (0, p, d) is the numerator at (p, d) divided by the denominator of row p. -/
theorem pay3_apply (A : Vec Ideal S1024x1024 .f32) (L : Vec Ideal S1024x1 .f32) (p d : Fin 1024) :
    k0_pay3 (F := Ideal) A L (ix3 (0 : Fin 1) p d) = Ideal.div (A (ix2 p d)) (L (ix2 p (0 : Fin 1))) := by
  unfold k0_pay3
  refine (shapeCast_ab_1ab_apply _ _ (0 : Fin 1) p d).trans ?_
  refine (divf_apply _ _ _).trans ?_
  exact congrArg (Ideal.div (A (ix2 p d))) (Cert.LibLayout.broadcastTo_a1_ab_apply L _ p d)

/-! ## The scores -/

/-- The key block with its unit axis dropped reads, at (k, e), the block at (0, k, e). -/
theorem pay7_apply (x1 : Vec Ideal S1x512x1024 .bf16) (k : Fin 512) (e : Fin 1024) :
    k0_pay7 (F := Ideal) x1 (ix2 k e) = x1 (ix3 (0 : Fin 1) k e) := by
  unfold k0_pay7
  exact shapeCast_1ab_ab_apply x1 _ k e

/-- The first product at (p, k) is the score of query row p against key row k. -/
theorem pay8_apply (x0 : Vec Ideal S1x1024x1024 .bf16) (x1 : Vec Ideal S1x512x1024 .bf16) (p : Fin 1024) (k : Fin 512) :
    k0_pay8 (F := Ideal) x0 x1 (ix2 p k) = blkScore x0 x1 p k := by
  unfold k0_pay8
  refine (Cert.LibPlainDot.matmul_zero_apply dot_S1024x1024_S1024x512_S1024x512_1_0_0_1_n_n ⟨rfl, rfl, rfl, rfl, rfl, rfl⟩
    none _ _ p k).trans ?_
  refine Finset.sum_congr rfl fun e _ => ?_
  refine congrArg₂ (· * ·) (shapeCast_1ab_ab_apply x0 _ p e) ?_
  exact (transpose_ix2_apply _ _ e k).trans (pay7_apply x1 k e)

/-! ## The running maximum -/

/-- The new running maximum of row p: the old one joined with the maximum of the row's scores. -/
theorem pay9_apply' (x0 : Vec Ideal S1x1024x1024 .bf16) (x1 : Vec Ideal S1x512x1024 .bf16) (M : Vec Ideal S1024x1 .f32)
    (p : Fin 1024) :
    k0_pay9 (F := Ideal) x0 x1 M (ix2 p (0 : Fin 1)) = stepM (M (ix2 p (0 : Fin 1))) (blkScore x0 x1 p) := by
  unfold k0_pay9
  refine (maximumf_apply _ _ _).trans ?_
  refine congrArg (max (M (ix2 p (0 : Fin 1)))) ?_
  refine (Cert.LibLayout.shapeCast_a_a1_apply _ _ p (0 : Fin 1)).trans ?_
  refine (Cert.LibRowReduce.laneMax_apply _ _ _ _ _ p).trans ?_
  rw [ofBits_neg_inf]
  exact congrArg (fun f => Finset.fold max (⊥ : EReal) f (Finset.univ : Finset (Fin 512)))
    (funext fun l => pay8_apply x0 x1 p l)

/-- The same through the identity cast under which it is stored. -/
theorem pay9_apply (x0 : Vec Ideal S1x1024x1024 .bf16) (x1 : Vec Ideal S1x512x1024 .bf16) (M : Vec Ideal S1024x1 .f32)
    (p : Fin 1024) :
    k0_pay2 (F := Ideal) (k0_pay9 x0 x1 M) (ix2 p (0 : Fin 1)) = stepM (M (ix2 p (0 : Fin 1))) (blkScore x0 x1 p) := by
  unfold k0_pay2
  rw [shapeCast_self]
  exact pay9_apply' x0 x1 M p

/-! ## The rescale factor and the block's exponentials -/

/-- The rescale factor of row p: exp (old maximum - new maximum). -/
theorem pay10_apply (x0 : Vec Ideal S1x1024x1024 .bf16) (x1 : Vec Ideal S1x512x1024 .bf16) (M : Vec Ideal S1024x1 .f32)
    (p : Fin 1024) :
    k0_pay10 (F := Ideal) x0 x1 M (ix2 p (0 : Fin 1))
      = Ideal.exp (M (ix2 p (0 : Fin 1)) - stepM (M (ix2 p (0 : Fin 1))) (blkScore x0 x1 p)) := by
  unfold k0_pay10
  show Ideal.exp (M (ix2 p (0 : Fin 1)) - k0_pay9 (F := Ideal) x0 x1 M (ix2 p (0 : Fin 1))) = _
  rw [pay9_apply']

/-- The block's exponential at (p, k): exp (score - new maximum of row p). -/
theorem pay11_apply (x0 : Vec Ideal S1x1024x1024 .bf16) (x1 : Vec Ideal S1x512x1024 .bf16) (M : Vec Ideal S1024x1 .f32)
    (p : Fin 1024) (k : Fin 512) :
    k0_pay11 (F := Ideal) x0 x1 M (ix2 p k)
      = Ideal.exp (blkScore x0 x1 p k - stepM (M (ix2 p (0 : Fin 1))) (blkScore x0 x1 p)) := by
  unfold k0_pay11
  show Ideal.exp (k0_pay8 (F := Ideal) x0 x1 (ix2 p k)
    - broadcastTo S1024x512 (k0_pay9 (F := Ideal) x0 x1 M) broadcasts_S1024x1_S1024x512 (ix2 p k)) = _
  rw [pay8_apply, Cert.LibLayout.broadcastTo_a1_ab_apply, pay9_apply']

/-! ## The running denominator -/

/-- The new running denominator of row p. -/
theorem pay12_apply (x0 : Vec Ideal S1x1024x1024 .bf16) (x1 : Vec Ideal S1x512x1024 .bf16) (M L : Vec Ideal S1024x1 .f32)
    (p : Fin 1024) :
    k0_pay12 (F := Ideal) x0 x1 M L (ix2 p (0 : Fin 1))
      = stepL (M (ix2 p (0 : Fin 1))) (L (ix2 p (0 : Fin 1))) (blkScore x0 x1 p) := by
  unfold k0_pay12
  rw [shapeCast_self]
  refine (addf_apply _ _ _).trans ?_
  unfold stepL
  refine congrArg₂ (· + ·) ?_ ?_
  · refine (mulf_apply _ _ _).trans ?_
    exact congrArg (· * L (ix2 p (0 : Fin 1))) (pay10_apply x0 x1 M p)
  · refine (Cert.LibLayout.shapeCast_a_a1_apply _ _ p (0 : Fin 1)).trans ?_
    refine (Cert.LibRowReduce.laneSum_apply _ _ _ _ _ p).trans ?_
    exact Finset.sum_congr rfl fun l _ => pay11_apply x0 x1 M p l

/-! ## The running numerator -/

/-- The new running numerator at (p, d), before the identity cast under which it is stored. -/
theorem pay13_apply' (x0 : Vec Ideal S1x1024x1024 .bf16) (x1 : Vec Ideal S1x512x1024 .bf16) (M : Vec Ideal S1024x1 .f32)
    (A : Vec Ideal S1024x1024 .f32) (p d : Fin 1024) :
    k0_pay13 (F := Ideal) x0 x1 M A (ix2 p d)
      = stepA (M (ix2 p (0 : Fin 1))) (A (ix2 p d)) (blkScore x0 x1 p) (fun k => x1 (ix3 (0 : Fin 1) k d)) := by
  unfold k0_pay13
  refine (addf_apply _ _ _).trans ?_
  unfold stepA
  refine congrArg₂ (· + ·) ?_ ?_
  · refine (mulf_apply _ _ _).trans ?_
    refine congrArg (· * A (ix2 p d)) ?_
    exact (Cert.LibLayout.broadcastTo_a1_ab_apply _ _ p d).trans (pay10_apply x0 x1 M p)
  · refine (Cert.LibPlainDot.matmul_zero_apply dot_S1024x512_S512x1024_S1024x1024_1_0_0_1_n_n ⟨rfl, rfl, rfl, rfl, rfl, rfl⟩
      none _ _ p d).trans ?_
    refine Finset.sum_congr rfl fun k _ => ?_
    exact congrArg₂ (· * ·) ((truncf_apply (ψ := .bf16) (k0_pay11 (F := Ideal) x0 x1 M) _ (ix2 p k)).trans (pay11_apply x0 x1 M p k))
      (pay7_apply x1 k d)

/-- The new running numerator at (p, d), as stored. -/
theorem pay13_apply (x0 : Vec Ideal S1x1024x1024 .bf16) (x1 : Vec Ideal S1x512x1024 .bf16) (M : Vec Ideal S1024x1 .f32)
    (A : Vec Ideal S1024x1024 .f32) (p d : Fin 1024) :
    k0_pay1 (F := Ideal) (k0_pay13 x0 x1 M A) (ix2 p d)
      = stepA (M (ix2 p (0 : Fin 1))) (A (ix2 p d)) (blkScore x0 x1 p) (fun k => x1 (ix3 (0 : Fin 1) k d)) := by
  unfold k0_pay1
  rw [shapeCast_self]
  exact pay13_apply' x0 x1 M A p d

end Cert.KernelIdeal.PayValue

end
-- ==== Proof.Spec.lean ====
/-
  The result of self-attention without scaling, as one function of the argument array x : [4, 4096, 1024],
  index by index on the extended reals.  For a batch b and a query row q the score of key row k is the inner
  product of rows q and k of x[b]; the row's maximum is folded from -∞ (and joined with -∞ once more, as the
  softmax does); the weight of key k is exp (score - max) divided by the sum of those exponentials (the sum
  taken from 0); the entry (b, q, d) of the result is the weighted sum of the entries x[b, k, d].
-/
import Idealize.ShloMosaic.PureOps.Ideal
import Idealize.ShloMosaic.Lib.ValueIdx

noncomputable section

namespace Cert.Attn

open Idealize.ShloMosaic Idealize.ShloMosaic.ValueIdx

/-- The array's shape. -/
abbrev SX : Shape := ⟨3, ![4, 4096, 1024]⟩

/-- The score of key row k for query row q in batch b: the inner product of the two rows. -/
def score (x : SX.Idx → EReal) (b : Fin 4) (q k : Fin 4096) : EReal :=
  ∑ e : Fin 1024, x (ix3 b q e) * x (ix3 b k e)

/-- The maximum of a query row's scores, folded from -∞ and joined with -∞ once more. -/
def rowMax (x : SX.Idx → EReal) (b : Fin 4) (q : Fin 4096) : EReal :=
  max ⊥ ((Finset.univ : Finset (Fin 4096)).fold max ⊥ (fun k => score x b q k))

/-- The softmax weight of key row k. -/
def weight (x : SX.Idx → EReal) (b : Fin 4) (q k : Fin 4096) : EReal :=
  Ideal.div (Ideal.exp (score x b q k - rowMax x b q))
    (0 + ∑ k' : Fin 4096, Ideal.exp (score x b q k' - rowMax x b q))

/-- The attention output at (b, q, d). -/
def out (x : SX.Idx → EReal) (b : Fin 4) (q : Fin 4096) (d : Fin 1024) : EReal :=
  ∑ k : Fin 4096, weight x b q k * x (ix3 b k d)

/-- The whole result array. -/
def G (x : SX.Idx → EReal) : SX.Idx → EReal :=
  fun i => out x (i 0) (i 1) (i 2)

end Cert.Attn

end
-- ==== Proof.KIValue.lean ====
/-
  The values of the attention kernel at the ideal instance.  The query block at point t = 32·b + 8·qi + ki holds
  rows 1024·qi … of batch b of the argument and the key block rows 512·ki …; a block's scores are the inner
  products of a query row with the block's key rows; the state after the point, read at a query row, is the online
  recursion (maximum, denominator, numerator) over the first ki + 1 key blocks of that row, started afresh at ki = 0.
-/
import proofs.«103166_j2052994367763_2_alg».proof.Proof.KIPieces
import proofs.«103166_j2052994367763_2_alg».proof.Proof.KIPay
import proofs.«103166_j2052994367763_2_alg».proof.Proof.LibOnlineSoftmax
import proofs.«103166_j2052994367763_2_alg».proof.Proof.Spec
import Idealize.ShloMosaic.Lib.StableHlo.Run
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Cert.LibOnlineSoftmax Cert.KernelIdeal.PayValue

variable (m : (ℓ : Loc nD τ sig) → Buf (Elt Ideal) ℓ)

/-- The argument array on core c. -/
abbrev xin (c : Dev nD) : S4x4096x1024.Idx → EReal := m ((c.tc : Thread nD τ).loc main_arg0)

/-- The host's conversion changes no value: the region finds the argument's values in the converted array. -/
theorem V_main_v0 (c : Dev nD) : (V m c main_v0 : S4x4096x1024.Idx → EReal) = xin m c := by
  dsimp only [V, hostOps0]; after_results; rfl

/-! ## The blocks read at an index -/

theorem idx0 : ∀ t : Fin cfg0.N, win0_0.index t (0 : Fin 3) = t.val / 32 ∧ win0_0.index t (1 : Fin 3) = (t.val / 8) % 4 ∧ win0_0.index t (2 : Fin 3) = 0 :=
  (by decide +kernel : ∀ t : Fin grid0.N, win0_0.index t (0 : Fin 3) = t.val / 32 ∧ win0_0.index t (1 : Fin 3) = (t.val / 8) % 4 ∧ win0_0.index t (2 : Fin 3) = 0)
theorem idx1 : ∀ t : Fin cfg0.N, win0_1.index t (0 : Fin 3) = t.val / 32 ∧ win0_1.index t (1 : Fin 3) = t.val % 8 ∧ win0_1.index t (2 : Fin 3) = 0 :=
  (by decide +kernel : ∀ t : Fin grid0.N, win0_1.index t (0 : Fin 3) = t.val / 32 ∧ win0_1.index t (1 : Fin 3) = t.val % 8 ∧ win0_1.index t (2 : Fin 3) = 0)

/-- The query block's row p is row 1024·qi + p of batch b. -/
theorem iblk0_apply (c : Dev nD) (t : Fin cfg0.N) (p e : Fin 1024) (b : Fin 4) (q : Fin 4096)
    (hb : b.val = t.val / 32) (hq : q.val = 1024 * ((t.val / 8) % 4) + p.val) :
    iblk m c 0 t (ix3 (0 : Fin 1) p e) = xin m c (ix3 b q e) := by
  rw [← V_main_v0]
  show V m c main_v0 (((cfg0.win 0).blk t).view.emb (ix3 (0 : Fin 1) p e)) = V m c main_v0 (ix3 b q e)
  obtain ⟨h0, h1, h2⟩ := idx0 t
  refine congrArg _ (funext fun a => Fin.ext ?_)
  match a with
  | ⟨0, _⟩ => show win0_0.index t (0 : Fin 3) * 1 + 1 * 0 = b.val; omega
  | ⟨1, _⟩ => show win0_0.index t (1 : Fin 3) * 1024 + 1 * p.val = q.val; omega
  | ⟨2, _⟩ => show win0_0.index t (2 : Fin 3) * 1024 + 1 * e.val = e.val; omega

/-- The key block's row k is row 512·ki + k of batch b. -/
theorem iblk1_apply (c : Dev nD) (t : Fin cfg0.N) (k : Fin 512) (e : Fin 1024) (b : Fin 4) (r : Fin 4096)
    (hb : b.val = t.val / 32) (hr : r.val = 512 * (t.val % 8) + k.val) :
    iblk m c 1 t (ix3 (0 : Fin 1) k e) = xin m c (ix3 b r e) := by
  rw [← V_main_v0]
  show V m c main_v0 (((cfg0.win 1).blk t).view.emb (ix3 (0 : Fin 1) k e)) = V m c main_v0 (ix3 b r e)
  obtain ⟨h0, h1, h2⟩ := idx1 t
  refine congrArg _ (funext fun a => Fin.ext ?_)
  match a with
  | ⟨0, _⟩ => show win0_1.index t (0 : Fin 3) * 1 + 1 * 0 = b.val; omega
  | ⟨1, _⟩ => show win0_1.index t (1 : Fin 3) * 512 + 1 * k.val = r.val; omega
  | ⟨2, _⟩ => show win0_1.index t (2 : Fin 3) * 1024 + 1 * e.val = e.val; omega

/-! ## The flat score and value functions of a query row -/

/-- A finite sum of products of finite extended reals is finite. -/
theorem sum_mul_fin {K : ℕ} (x y : Fin K → EReal) (hx : ∀ k, x k ≠ ⊤ ∧ x k ≠ ⊥) (hy : ∀ k, y k ≠ ⊤ ∧ y k ≠ ⊥) :
    (∑ k, x k * y k) ≠ ⊤ ∧ (∑ k, x k * y k) ≠ ⊥ := by
  obtain ⟨x', rfl⟩ : ∃ x' : Fin K → ℝ, x = fun n => (x' n : EReal) :=
    ⟨fun n => (x n).toReal, funext fun n => (EReal.coe_toReal (hx n).1 (hx n).2).symm⟩
  obtain ⟨y', rfl⟩ : ∃ y' : Fin K → ℝ, y = fun n => (y' n : EReal) :=
    ⟨fun n => (y n).toReal, funext fun n => (EReal.coe_toReal (hy n).1 (hy n).2).symm⟩
  simp only [← EReal.coe_mul]
  rw [← Cert.LibOnlineSoftmax.coe_sum]
  exact ⟨EReal.coe_ne_top _, EReal.coe_ne_bot _⟩

/-- The scores of query row q of batch b against every key row, by the key row's number (0 past the array). -/
def Sflat (x : S4x4096x1024.Idx → EReal) (b : Fin 4) (q : Fin 4096) : ℕ → EReal :=
  fun u => if h : u < 4096 then Cert.Attn.score x b q ⟨u, h⟩ else 0
/-- Column d of batch b, by the row's number (0 past the array). -/
def Bflat (x : S4x4096x1024.Idx → EReal) (b : Fin 4) (d : Fin 1024) : ℕ → EReal :=
  fun u => if h : u < 4096 then x (ix3 b ⟨u, h⟩ d) else 0

theorem Sflat_finite (x : S4x4096x1024.Idx → EReal) (hx : ∀ i, x i ≠ ⊤ ∧ x i ≠ ⊥) (b : Fin 4) (q : Fin 4096) (u : ℕ) :
    Sflat x b q u ≠ ⊤ ∧ Sflat x b q u ≠ ⊥ := by
  unfold Sflat
  by_cases h : u < 4096
  · rw [dif_pos h]; exact sum_mul_fin _ _ (fun _ => hx _) (fun _ => hx _)
  · rw [dif_neg h]; exact ⟨EReal.zero_ne_top, EReal.zero_ne_bot⟩

theorem Bflat_finite (x : S4x4096x1024.Idx → EReal) (hx : ∀ i, x i ≠ ⊤ ∧ x i ≠ ⊥) (b : Fin 4) (d : Fin 1024) (u : ℕ) :
    Bflat x b d u ≠ ⊤ ∧ Bflat x b d u ≠ ⊥ := by
  unfold Bflat
  by_cases h : u < 4096
  · rw [dif_pos h]; exact hx _
  · rw [dif_neg h]; exact ⟨EReal.zero_ne_top, EReal.zero_ne_bot⟩

/-- The scores of the key block at point n against the query block's row p are the flat scores of the row at the
    block's 512 key rows. -/
theorem blkScore_eq (c : Dev nD) (n : ℕ) (hn : n < cfg0.N) (p : Fin 1024) (b : Fin 4) (q : Fin 4096)
    (hb : b.val = n / 32) (hq : q.val = 1024 * ((n / 8) % 4) + p.val) :
    blkScore (iblk m c 0 ⟨n, hn⟩) (iblk m c 1 ⟨n, hn⟩) p = fun k : Fin 512 => Sflat (xin m c) b q (n % 8 * 512 + k.val) := by
  funext k
  have hk : n % 8 * 512 + k.val < 4096 := by have := k.isLt; omega
  unfold blkScore Sflat
  rw [dif_pos hk]
  unfold Cert.Attn.score
  refine Finset.sum_congr rfl fun e _ => ?_
  rw [iblk0_apply m c ⟨n, hn⟩ p e b q hb hq, iblk1_apply m c ⟨n, hn⟩ k e b ⟨n % 8 * 512 + k.val, hk⟩ hb (by show n % 8 * 512 + k.val = 512 * (n % 8) + k.val; omega)]

/-- Column d of the key block at point n is column d of the batch at the block's 512 key rows. -/
theorem blkVal_eq (c : Dev nD) (n : ℕ) (hn : n < cfg0.N) (d : Fin 1024) (b : Fin 4) (hb : b.val = n / 32) :
    (fun k : Fin 512 => iblk m c 1 ⟨n, hn⟩ (ix3 (0 : Fin 1) k d)) = fun k : Fin 512 => Bflat (xin m c) b d (n % 8 * 512 + k.val) := by
  funext k
  have hk : n % 8 * 512 + k.val < 4096 := by have := k.isLt; omega
  unfold Bflat
  rw [dif_pos hk]
  exact iblk1_apply m c ⟨n, hn⟩ k d b ⟨n % 8 * 512 + k.val, hk⟩ hb (by show n % 8 * 512 + k.val = 512 * (n % 8) + k.val; omega)

/-! ## The state is the online recursion -/

/-- One block folded into a state that is the recursion after n mod 8 blocks gives the recursion after one more. -/
theorem stepFn_state (c : Dev nD) (n : ℕ) (hn : n < cfg0.N) (E : St Ideal) (p d : Fin 1024) (b : Fin 4) (q : Fin 4096)
    (hb : b.val = n / 32) (hq : q.val = 1024 * ((n / 8) % 4) + p.val) (j : ℕ) (hj : j = n % 8)
    (h1 : E.1 (ix2 p (0 : Fin 1)) = (state (fun j (k : Fin 512) => Sflat (xin m c) b q (j * 512 + k.val)) (fun j (k : Fin 512) => Bflat (xin m c) b d (j * 512 + k.val)) j).1)
    (h2 : E.2.1 (ix2 p (0 : Fin 1)) = (state (fun j (k : Fin 512) => Sflat (xin m c) b q (j * 512 + k.val)) (fun j (k : Fin 512) => Bflat (xin m c) b d (j * 512 + k.val)) j).2.1)
    (h3 : E.2.2 (ix2 p d) = (state (fun j (k : Fin 512) => Sflat (xin m c) b q (j * 512 + k.val)) (fun j (k : Fin 512) => Bflat (xin m c) b d (j * 512 + k.val)) j).2.2) :
    (stepFn (iblk m c 0 ⟨n, hn⟩) (iblk m c 1 ⟨n, hn⟩) E).1 (ix2 p (0 : Fin 1)) = (state (fun j (k : Fin 512) => Sflat (xin m c) b q (j * 512 + k.val)) (fun j (k : Fin 512) => Bflat (xin m c) b d (j * 512 + k.val)) (j + 1)).1
    ∧ (stepFn (iblk m c 0 ⟨n, hn⟩) (iblk m c 1 ⟨n, hn⟩) E).2.1 (ix2 p (0 : Fin 1)) = (state (fun j (k : Fin 512) => Sflat (xin m c) b q (j * 512 + k.val)) (fun j (k : Fin 512) => Bflat (xin m c) b d (j * 512 + k.val)) (j + 1)).2.1
    ∧ (stepFn (iblk m c 0 ⟨n, hn⟩) (iblk m c 1 ⟨n, hn⟩) E).2.2 (ix2 p d) = (state (fun j (k : Fin 512) => Sflat (xin m c) b q (j * 512 + k.val)) (fun j (k : Fin 512) => Bflat (xin m c) b d (j * 512 + k.val)) (j + 1)).2.2 := by
  subst hj
  have hs := blkScore_eq m c n hn p b q hb hq
  have hβ := blkVal_eq m c n hn d b hb
  rw [state_succ]
  refine ⟨?_, ?_, ?_⟩
  · show k0_pay2 (F := Ideal) (k0_pay9 _ _ E.1) (ix2 p (0 : Fin 1)) = _
    rw [pay9_apply, hs, h1]
  · show k0_pay12 (F := Ideal) _ _ E.1 E.2.1 (ix2 p (0 : Fin 1)) = _
    rw [pay12_apply, hs, h1, h2]
  · show k0_pay1 (F := Ideal) (k0_pay13 _ _ E.1 E.2.2) (ix2 p d) = _
    rw [pay13_apply, hs, hβ, h1, h3]

/-- The state after point n, at query row p (and column d), is the online recursion over the first n mod 8 + 1
    key blocks of row 1024·qi + p of batch b. -/
theorem stAt_state (c : Dev nD) : ∀ (n : ℕ) (hn : n < cfg0.N) (p d : Fin 1024) (b : Fin 4) (q : Fin 4096),
    b.val = n / 32 → q.val = 1024 * ((n / 8) % 4) + p.val →
    (stAt m c n hn).1 (ix2 p (0 : Fin 1)) = (state (fun j (k : Fin 512) => Sflat (xin m c) b q (j * 512 + k.val)) (fun j (k : Fin 512) => Bflat (xin m c) b d (j * 512 + k.val)) (n % 8 + 1)).1
    ∧ (stAt m c n hn).2.1 (ix2 p (0 : Fin 1)) = (state (fun j (k : Fin 512) => Sflat (xin m c) b q (j * 512 + k.val)) (fun j (k : Fin 512) => Bflat (xin m c) b d (j * 512 + k.val)) (n % 8 + 1)).2.1
    ∧ (stAt m c n hn).2.2 (ix2 p d) = (state (fun j (k : Fin 512) => Sflat (xin m c) b q (j * 512 + k.val)) (fun j (k : Fin 512) => Bflat (xin m c) b d (j * 512 + k.val)) (n % 8 + 1)).2.2 := by
  intro n
  induction n with
  | zero =>
    intro hn p d b q hb hq
    show (stepAt m c ⟨0, hn⟩ st0).1 _ = _ ∧ (stepAt m c ⟨0, hn⟩ st0).2.1 _ = _ ∧ (stepAt m c ⟨0, hn⟩ st0).2.2 _ = _
    rw [stepAt_eq, if_pos (by rfl)]
    exact stepFn_state m c 0 hn initSt p d b q hb hq 0 rfl (pay4_apply p) (pay5_apply p) (pay6_apply p d)
  | succ n ih =>
    intro hn p d b q hb hq
    show (stepAt m c ⟨n + 1, hn⟩ (stAt m c n (Nat.lt_of_succ_lt hn))).1 _ = _ ∧ (stepAt m c ⟨n + 1, hn⟩ (stAt m c n (Nat.lt_of_succ_lt hn))).2.1 _ = _
      ∧ (stepAt m c ⟨n + 1, hn⟩ (stAt m c n (Nat.lt_of_succ_lt hn))).2.2 _ = _
    rw [stepAt_eq]
    by_cases h : (n + 1) % 8 = 0
    · rw [if_pos h]
      exact stepFn_state m c (n + 1) hn initSt p d b q hb hq ((n + 1) % 8) rfl (by rw [h]; exact pay4_apply p) (by rw [h]; exact pay5_apply p) (by rw [h]; exact pay6_apply p d)
    · rw [if_neg h]
      have hN : n + 1 < 128 := lt_of_lt_of_eq hn (show cfg0.N = 128 from N_0)
      obtain ⟨i1, i2, i3⟩ := ih (Nat.lt_of_succ_lt hn) p d b q (by omega) (by omega)
      have e : n % 8 + 1 = (n + 1) % 8 := by omega
      exact stepFn_state m c (n + 1) hn _ p d b q hb hq ((n + 1) % 8) rfl (by rw [← e]; exact i1) (by rw [← e]; exact i2) (by rw [← e]; exact i3)

/-! ## The output block -/

/-- Where ki = 7 the output's staging buffer holds, at row p and column d, the attention output of row
    1024·qi + p of batch b: the online recursion over all eight key blocks is the softmax-weighted sum. -/
theorem outAt_apply (c : Dev nD) (hx : ∀ i, xin m c i ≠ ⊤ ∧ xin m c i ≠ ⊥) (t : Fin cfg0.N) (h7 : t.val % 8 = 7) (p d : Fin 1024) (b : Fin 4) (q : Fin 4096)
    (hb : b.val = t.val / 32) (hq : q.val = 1024 * ((t.val / 8) % 4) + p.val) :
    outAt m c t (ix3 (0 : Fin 1) p d) = Cert.Attn.out (xin m c) b q d := by
  rw [outAt_eq m c t h7, pay3_apply]
  obtain ⟨-, i2, i3⟩ := stAt_state m c t.val t.isLt p d b q hb hq
  rw [i2, i3, h7]
  rw [show 7 + 1 = 8 from rfl, online_eq_finite 8 512 (by norm_num) (by norm_num) (Sflat (xin m c) b q) (Bflat (xin m c) b d)
    (Sflat_finite _ hx b q) (Bflat_finite _ hx b d)]
  unfold Cert.Attn.out Cert.Attn.weight Cert.Attn.rowMax
  show (∑ u : Fin 4096, _) = _
  simp only [Sflat, Bflat, Fin.is_lt, dite_true, Fin.eta]

end Cert.KernelIdeal.Hand

end
-- ==== Proof.KIFinal.lean ====
/-
  From the output's blocks to the whole result array of the attention kernel.  The grid's 128 points are
  t = 32·b + 8·qi + ki; the output window's block at t is the block (b, qi, 0) of 1 × 1024 × 1024 elements of the
  [4, 4096, 1024] result, stored exactly where ki = 7.  So element (0, p, d) of the block stored at t is element
  (b, 1024·qi + p, d) of the array, the 16 stored blocks tile the array, and a whole-array function that agrees
  with every stored block is what the array holds after the run.
-/
import proofs.«103166_j2052994367763_2_alg».proof.Proof.KIFrame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## From the output's blocks to the whole result array -/

/-- The output window's block index at the point t = 32·b + 8·qi + ki is (b, qi, 0), decided over the grid. -/
theorem outIndex : ∀ t : Fin cfg0.N, win0_2.index t (0 : Fin 3) = t.val / 32 ∧ win0_2.index t (1 : Fin 3) = (t.val / 8) % 4
    ∧ win0_2.index t (2 : Fin 3) = 0 :=
  (by decide +kernel : ∀ t : Fin grid0.N, _)

/-- What a storing point writes back is its block of the whole-array function: element (0, p, d) of the block at
    t = 32·b + 8·qi + 7 is element (b, 1024·qi + p, d) of the array. -/
theorem stored_eq (c : Dev nD) (Gx : S4x4096x1024.Idx → Elt F .f32)
    (hG : ∀ (t : Fin cfg0.N), t.val % 8 = 7 → ∀ (p d : Fin 1024) (b : Fin 4) (q : Fin 4096), b.val = t.val / 32 → q.val = 1024 * ((t.val / 8) % 4) + p.val →
            outAt m c t (ValueIdx.ix3 (0 : Fin 1) p d) = Gx (ValueIdx.ix3 b q d))
    (t : Fin cfg0.N) (hf : (cfg0.win 2).flush t = true) :
    (dats m 0 c).flushed 2 t = ((cfg0.win 2).blk t).view.read (Elt F) Gx := by
  have h7 : t.val % 8 = 7 := (flush0_2 t).mp hf
  have hN : t.val < 128 := lt_of_lt_of_eq t.isLt N_0
  show (cfg0.win 2).cut (grid0.coords t) ((dats m 0 c).after 2 t) = _
  rw [after2]
  obtain ⟨e0, e1, e2⟩ := outIndex t
  funext y
  obtain ⟨u, p, d, rfl⟩ : ∃ (u : Fin 1) (p d : Fin 1024), y = ValueIdx.ix3 u p d := ⟨y 0, y 1, y 2, ValueIdx.eq_ix3 (n0 := 1) (n1 := 1024) (n2 := 1024) y⟩
  obtain rfl : u = 0 := Subsingleton.elim _ _
  show outAt m c t (ValueIdx.ix3 (0 : Fin 1) p d) = Gx (((cfg0.win 2).blk t).view.emb (ValueIdx.ix3 (0 : Fin 1) p d))
  have hb : t.val / 32 < 4 := by omega
  have hq : 1024 * ((t.val / 8) % 4) + p.val < 4096 := by have := p.isLt; omega
  have hemb : ((cfg0.win 2).blk t).view.emb (ValueIdx.ix3 (0 : Fin 1) p d)
      = ValueIdx.ix3 (⟨t.val / 32, hb⟩ : Fin 4) (⟨1024 * ((t.val / 8) % 4) + p.val, hq⟩ : Fin 4096) d := by
    funext a; apply Fin.ext
    match a with
    | ⟨0, _⟩ => show win0_2.index t (0 : Fin 3) * 1 + 1 * 0 = t.val / 32; omega
    | ⟨1, _⟩ => show win0_2.index t (1 : Fin 3) * 1024 + 1 * p.val = 1024 * ((t.val / 8) % 4) + p.val; omega
    | ⟨2, _⟩ => show win0_2.index t (2 : Fin 3) * 1024 + 1 * d.val = d.val; omega
  rw [hemb]
  exact hG t h7 p d _ _ rfl rfl

/-- An index of the result array lies in the block of the point t iff each coordinate lies in the block's range on its axis. -/
theorem mem_outBlock (t : Fin cfg0.N) (i : S4x4096x1024.Idx) :
    i ∈ ((cfg0.win 2).blk t).view.set ↔ ∀ a : Fin 3, win0_2.index t a * S1x1024x1024.size a ≤ (i a).val
      ∧ (i a).val < win0_2.index t a * S1x1024x1024.size a + S1x1024x1024.size a := by
  show i ∈ ((View.whole main_v1).slice (win0_2.rect t)).set ↔ _
  rw [View.set_slice_whole, Rect.mem_set_unit]
  exact Iff.rfl

/-- The stored blocks cover the result array: the index (b, q, d) lies in the block stored at the point
    t = 32·b + 8·(q / 1024) + 7, the last key block of batch b and query block q / 1024. -/
theorem out_cover (i : S4x4096x1024.Idx) :
    ∃ t : Fin cfg0.N, (cfg0.win 2).flush t = true ∧ i ∈ ((cfg0.win 2).blk t).view.set := by
  have h0 : (i 0).val < 4 := (i 0).isLt
  have h1 : (i 1).val < 4096 := (i 1).isLt
  have h2 : (i 2).val < 1024 := (i 2).isLt
  obtain ⟨t, ht⟩ : ∃ t : Fin cfg0.N, t.val = 32 * (i 0).val + 8 * ((i 1).val / 1024) + 7 :=
    ⟨⟨32 * (i 0).val + 8 * ((i 1).val / 1024) + 7, lt_of_lt_of_eq (by omega : _ < 128) N_0.symm⟩, rfl⟩
  obtain ⟨e0, e1, e2⟩ := outIndex t
  refine ⟨t, (flush0_2 t).mpr (by omega), ?_⟩
  rw [mem_outBlock]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1024 ≤ (i 2).val ∧ (i 2).val < win0_2.index t (2 : Fin 3) * 1024 + 1024; omega

/-- The result array after the run is the whole-array function whose blocks the storing points wrote. -/
theorem final_eq (c : Dev nD) (Gx : S4x4096x1024.Idx → Elt F .f32)
    (hG : ∀ (t : Fin cfg0.N), t.val % 8 = 7 → ∀ (p d : Fin 1024) (b : Fin 4) (q : Fin 4096), b.val = t.val / 32 → q.val = 1024 * ((t.val / 8) % 4) + p.val →
            outAt m c t (ValueIdx.ix3 (0 : Fin 1) p d) = Gx (ValueIdx.ix3 b q d)) :
    (dats m 0 c).arrAt 2 cfg0.N = Gx :=
  (dats m 0 c).arrAt_eq_of_cover 2 Gx (fun t hf => stored_eq m c Gx hG t hf) out_cover

end Cert.KernelIdeal.Hand

end
-- ==== Proof.FiniteInput.lean ====
/-
  Finiteness of the argument array, read back from the printed precondition, on the extended reals.
  The precondition compares |x i| with +∞ (the word 0x7F800000 of the 32-bit format) by "less than" at every
  index and joins the answers by "and" over all three axes, from 1; the claim is that the joined word is 1.
  Then every answer is 1, so |x i| < +∞ at every index i; on the extended reals |a| = max a (-a), which is +∞
  at both infinities, so x i is neither of them.
-/
import proofs.«103166_j2052994367763_2_alg».proof.Pre_finite_inputs
import proofs.«103166_j2052994367763_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Idealize.ShloMosaic

/-- The rank-0 shape has one index. -/
local instance : Subsingleton S_.Idx := ⟨fun a b => funext fun d => d.elim0⟩

/-- The word 0x7F800000 of the 32-bit format denotes +∞. -/
theorem word_top : Ideal.ofBits .f32 0x7F800000#32 = (⊤ : EReal) := by
  simp [Ideal.ofBits, Ideal.ieee]

/-- An extended real whose absolute value max a (-a) is below +∞ is a real. -/
theorem ne_of_abs_lt_top (a : EReal) (h : Ideal.cmp .olt (max a (-a)) ⊤ = 1#1) : a ≠ ⊤ ∧ a ≠ ⊥ := by
  induction a using EReal.rec with
  | bot => simp [Ideal.cmp] at h
  | coe r => exact ⟨EReal.coe_ne_top r, EReal.coe_ne_bot r⟩
  | top => simp [Ideal.cmp] at h

/-- The precondition decoded: every entry of the argument array is a real. -/
theorem finite_of_pre [Cert.Pre_finite_inputs.Facts] (x : FVec Ideal Cert.Pre_finite_inputs.S4x4096x1024 .f32)
    (h : Cert.Pre_finite_inputs.fn (F := Ideal) x = fun _ => 1#1) : ∀ i, x i ≠ ⊤ ∧ x i ≠ ⊥ := by
  intro i
  have e := congrFun h ValueIdx.ix0
  dsimp only [Cert.Pre_finite_inputs.fn] at e
  have hi := Host.reduce_andi_all _ _ _ _ _ e i
  apply ne_of_abs_lt_top
  rw [← word_top]
  exact hi

end Cert.Pre_finite_inputs.Finite

end
-- ==== Proof.RefRead.lean ====
import proofs.«103166_j2052994367763_2_alg».proof.Proof.Gen.ReferenceIdeal.Read
import proofs.«103166_j2052994367763_2_alg».proof.Proof.Spec
import Idealize.ShloMosaic.Lib.ValueIdx
import Idealize.ShloMosaic.Lib.Pipeline.Value
import Idealize.ShloMosaic.PureOps.Ideal.Laws
import Idealize.ShloMosaic.PureOps.Reduce

/-!
  The reference program, read index by index at the ideal values, is the attention function G of the
  specification: the scores are the inner products of rows, the row maximum is the fold of max from -∞
  joined with -∞ once more, the denominators are the sums of the exponentials from 0, the weights their
  quotients, and the result the weighted sums of rows.
-/

noncomputable section

namespace Cert.ReferenceIdeal.RefValue

open Cert.ReferenceIdeal Cert.ReferenceIdeal.Gen Cert.ReferenceIdeal.Read Idealize.ShloMosaic
  Idealize.ShloMosaic.ValueIdx Cert.Attn

/-- The argument array's type. -/
abbrev Arg : Type := (⟨S4x4096x1024, .f32⟩ : BufTy).Contents (Elt Ideal)

/-- The word 0xFF800000 is -∞. -/
theorem ofBits_negInf : Ideal.ofBits .f32 0xFF800000#32 = (⊥ : EReal) := by
  simp [Ideal.ofBits, Ideal.ieee]

/-- The first product's entry (b, q, k) is the score of key row k for query row q. -/
theorem scores_apply (x : Arg) (b : Fin 4) (q k : Fin 4096) :
    val_main_v0 (F := Ideal) x (ix3 b q k) = score x b q k := by
  rw [val_main_v0_apply]
  unfold score
  refine Finset.sum_congr rfl fun e _ => ?_
  have el : lidx_main_v0 (ix3 b q k) e = ix3 b q e :=
    funext fun a => Fin.ext (by match a with | ⟨0, _⟩ => rfl | ⟨1, _⟩ => rfl | ⟨2, _⟩ => rfl)
  have er : ridx_main_v0 (ix3 b q k) e = ix3 b k e :=
    funext fun a => Fin.ext (by match a with | ⟨0, _⟩ => rfl | ⟨1, _⟩ => rfl | ⟨2, _⟩ => rfl)
  rw [el, er]

/-- The reduced index (b, q) with the key coordinate k put back is (b, q, k). -/
theorem lift_ix2 (h : S4x4096x4096.Reduces [2] S4x4096) (b : Fin 4) (q : Fin 4096)
    (k : Fin (S4x4096x4096.size 2)) :
    h.lift (ix2 b q) k = ix3 b q (⟨k.val, k.isLt⟩ : Fin 4096) := by
  funext c; apply Fin.ext
  fin_cases c <;> rfl

/-- The maximum reduction's entry (b, q) is the fold of max from -∞ over the row's scores. -/
theorem foldmax_apply (x : Arg) (b : Fin 4) (q : Fin 4096) :
    val_main_v1 (F := Ideal) x (ix2 b q)
      = (Finset.univ : Finset (Fin 4096)).fold max ⊥ (fun k => score x b q k) := by
  have h : S4x4096x4096.Reduces [2] S4x4096 := by decide
  unfold val_main_v1
  rw [Host.reduce_eq_fold_single FloatOps.maximumf _ _ reducesTo_S4x4096x4096_S4x4096_d2 h h_S_]
  have hi : val_main_cst (F := Ideal) (Shape.Idx.first h_S_) = (⊥ : EReal) := by
    rw [val_main_cst_apply]; exact ofBits_negInf
  have hf : (val_main_v0 (F := Ideal) x ∘ h.lift (ix2 b q)) = fun k : Fin 4096 => score x b q k :=
    funext fun k => by
      show val_main_v0 (F := Ideal) x (h.lift (ix2 b q) k) = score x b q k
      rw [lift_ix2 h b q k]
      exact scores_apply x b q k
  rw [hi]
  exact congrArg (fun f => Finset.fold max (⊥ : EReal) f (Finset.univ : Finset (Fin 4096))) hf

/-- The row maximum: the fold joined with -∞ once more. -/
theorem rowmax_apply (x : Arg) (b : Fin 4) (q : Fin 4096) :
    val_main_v3 (F := Ideal) x (ix2 b q) = rowMax x b q := by
  rw [val_main_v3_apply, val_main_v2_apply, val_main_cst_0_apply, foldmax_apply]
  unfold rowMax
  rw [Ideal.maximumf_def]
  exact congrArg (fun y => max y _) ofBits_negInf

/-- The exponential's entry (b, q, k): exp of the score less the row maximum. -/
theorem exp_apply (x : Arg) (b : Fin 4) (q k : Fin 4096) :
    val_main_v7 (F := Ideal) x (ix3 b q k) = Ideal.exp (score x b q k - rowMax x b q) := by
  have e : idx_main_v4 (idx_main_v5 (ix3 b q k)) = ix2 b q :=
    funext fun a => Fin.ext (by match a with | ⟨0, _⟩ => rfl | ⟨1, _⟩ => rfl)
  rw [val_main_v7_apply, val_main_v6_apply, val_main_v5_apply, val_main_v4_apply, e, scores_apply,
    rowmax_apply, Ideal.hostUnary_exp_def, Ideal.subf_def]

/-- The sum reduction's entry (b, q): from 0, the sum of the row's exponentials. -/
theorem denom_apply (x : Arg) (b : Fin 4) (q : Fin 4096) :
    val_main_v8 (F := Ideal) x (ix2 b q)
      = 0 + ∑ k' : Fin 4096, Ideal.exp (score x b q k' - rowMax x b q) := by
  rw [val_main_v8_apply, val_main_cst_1_apply]
  refine congrArg₂ (· + ·) Ideal.ofBits_zero_f32 (Finset.sum_congr rfl fun k' _ => ?_)
  have e : idx_main_v8 (ix2 b q) k' = ix3 b q k' :=
    funext fun a => Fin.ext (by match a with | ⟨0, _⟩ => rfl | ⟨1, _⟩ => rfl | ⟨2, _⟩ => rfl)
  rw [e, exp_apply]

/-- The quotient's entry (b, q, k) is the softmax weight of key row k. -/
theorem weight_apply (x : Arg) (b : Fin 4) (q k : Fin 4096) :
    val_main_v11 (F := Ideal) x (ix3 b q k) = weight x b q k := by
  have e : idx_main_v9 (idx_main_v10 (ix3 b q k)) = ix2 b q :=
    funext fun a => Fin.ext (by match a with | ⟨0, _⟩ => rfl | ⟨1, _⟩ => rfl)
  rw [val_main_v11_apply, val_main_v10_apply, val_main_v9_apply, e, exp_apply, denom_apply,
    Ideal.hostDivf_def]
  rfl

/-- The reference program's result is the attention function of the specification. -/
theorem ref_eq_G (x : (⟨Cert.ReferenceIdeal.S4x4096x1024, .f32⟩ : BufTy).Contents (Elt Ideal)) :
    Cert.ReferenceIdeal.Read.val_main_v12 (F := Ideal) x = Cert.Attn.G x := by
  funext i
  obtain ⟨b, q, d, rfl⟩ : ∃ (b : Fin 4) (q : Fin 4096) (d : Fin 1024), i = ix3 b q d :=
    ⟨i 0, i 1, i 2, eq_ix3 i⟩
  rw [val_main_v12_apply]
  show _ = out x b q d
  unfold out
  refine Finset.sum_congr rfl fun k _ => ?_
  have el : lidx_main_v12 (ix3 b q d) k = ix3 b q k :=
    funext fun a => Fin.ext (by match a with | ⟨0, _⟩ => rfl | ⟨1, _⟩ => rfl | ⟨2, _⟩ => rfl)
  have er : ridx_main_v12 (ix3 b q d) k = ix3 b k d :=
    funext fun a => Fin.ext (by match a with | ⟨0, _⟩ => rfl | ⟨1, _⟩ => rfl | ⟨2, _⟩ => rfl)
  rw [el, er, weight_apply]

end Cert.ReferenceIdeal.RefValue

end
-- ==== Proof.lean ====
/-
  Self-attention without scaling over x : [4, 4096, 1024]: a kernel that walks each block of 1024 query rows over
  the eight blocks of 512 key rows, keeping the running maximum, denominator and numerator of the softmax in
  scratch and dividing once at the end, against the plain softmax of the score matrix times x.

  At the ideal instance both are one function of x (Proof/Spec.lean): with s_k the scores of a query row and
  M = max(-∞, max_k s_k), the entry is ∑_k (exp (s_k - M) / (0 + ∑_k' exp (s_k' - M))) · x[k, d].  The reference
  computes this directly (Proof/RefRead.lean).  The kernel's carried state after each key block is the online
  recursion M' = max(M, block max), L' = exp (M - M')·L + ∑ exp (s - M'), A' = exp (M - M')·A + ∑ exp (s - M')·x
  from (-∞, 0, 0) (Proof/KIValue.lean), and the quotient A/L after the last block is the weighted sum because
  exp (M - M')·exp (s - M) = exp (s - M') on the reals and a quotient by a positive real distributes over a finite
  sum (Proof/LibOnlineSoftmax.lean); both laws need every entry of x finite, which the precondition gives
  (Proof/FiniteInput.lean).  The same value is converted once by the host and read by both input windows; at the
  ideal instance the conversion changes nothing.

  The three frames: the kernel's body is run symbolically in its three control cases (reset, middle, last block of
  a row) over any values, the scratch carried from point to point, the two input windows sharing one array whose
  ownership is dealt to them in halves (Proof/K*.lean for the program as printed, Proof/KI*.lean for its
  idealization); the reference's frame is its run with the result dropped.
-/
import proofs.«103166_j2052994367763_2_alg».proof.Defs
import proofs.«103166_j2052994367763_2_alg».proof.Proof.Gen.Kernel
import proofs.«103166_j2052994367763_2_alg».proof.Proof.Gen.KernelIdeal
import proofs.«103166_j2052994367763_2_alg».proof.Proof.Gen.ReferenceIdeal
import proofs.«103166_j2052994367763_2_alg».proof.Proof.Gen.Pre_finite_inputs
import proofs.«103166_j2052994367763_2_alg».proof.Proof.Gen.ReferenceIdeal.Run
import proofs.«103166_j2052994367763_2_alg».proof.Proof.KLaunch
import proofs.«103166_j2052994367763_2_alg».proof.Proof.KILaunch
import proofs.«103166_j2052994367763_2_alg».proof.Proof.KIValue
import proofs.«103166_j2052994367763_2_alg».proof.Proof.KIFinal
import proofs.«103166_j2052994367763_2_alg».proof.Proof.FiniteInput
import proofs.«103166_j2052994367763_2_alg».proof.Proof.RefRead

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing: there is nothing to preserve. -/
theorem preserves : Cert.preserves_Kernel_KernelIdeal := trivial

/-- The result array after the kernel's run is the attention function of the argument: every index lies in the
    block written back at the last key block of its row of query blocks, which holds that function's values. -/
theorem kernel_final (m : (ℓ : Loc Cert.KernelIdeal.nD Cert.KernelIdeal.τ Cert.KernelIdeal.sig) → Buf (Elt Ideal) ℓ)
    (c : Dev Cert.KernelIdeal.nD) (hx : ∀ i, Cert.KernelIdeal.Hand.xin m c i ≠ ⊤ ∧ Cert.KernelIdeal.Hand.xin m c i ≠ ⊥) :
    (Cert.KernelIdeal.Hand.dats m 0 c).arrAt 2 Cert.KernelIdeal.cfg0.N = Cert.Attn.G (Cert.KernelIdeal.Hand.xin m c) :=
  Cert.KernelIdeal.Hand.final_eq m c (Cert.Attn.G (Cert.KernelIdeal.Hand.xin m c)) fun t h7 p d b q hb hq =>
    Cert.KernelIdeal.Hand.outAt_apply m c hx t h7 p d b q hb hq

/-- Both idealized programs end at the attention function of the argument. -/
theorem algebraic : Cert.algebraic_KernelIdeal_ReferenceIdeal := by
  intro m ρ m' ρ' hpre hagree
  have hx : ∀ c i, Cert.KernelIdeal.Hand.xin m c i ≠ ⊤ ∧ Cert.KernelIdeal.Hand.xin m c i ≠ ⊥ := fun c =>
    Cert.Pre_finite_inputs.Finite.finite_of_pre _ (hpre c)
  refine ⟨fun c => Cert.Attn.G (Cert.KernelIdeal.Hand.xin m c), ?_, ?_⟩
  · exact (θ_run Cert.KernelIdeal.defs _ _).mono (fun r h c => ⟨((h c).1 2).trans (kernel_final m c (hx c)), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v12_eq, Cert.ReferenceIdeal.RefValue.ref_eq_G, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
